-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg13 : FVec F S128 .f32) (main_arg14 : FVec F S128x128 .f32) (main_arg15 : FVec F S128x128 .f32) (main_arg16 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128x128 .f32) (main_arg16 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128x128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128x128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S5000x128 : Shape := ⟨2, ![5000, 128]⟩
abbrev S1x128 : Shape := ⟨2, ![1, 128]⟩

abbrev nBuf : Space → Nat
  | .hbm => 70
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .f32⟩
  | .hbm, ⟨16, _⟩ => ⟨S128, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S800000, .f32⟩
  | .hbm, ⟨46, _⟩ => ⟨S_, .f32⟩
  | .hbm, ⟨47, _⟩ => ⟨S50000, .f32⟩
  | .hbm, ⟨48, _⟩ => ⟨S800000x1, .i32⟩
  | .hbm, ⟨49, _⟩ => ⟨S50000, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128x128, .f32⟩
  | .local _ .vmem, ⟨10, _⟩ => ⟨S128, .f32⟩
  | .local _ .vmem, ⟨11, _⟩ => ⟨S128x128, .f32⟩
  | .local _ .vmem, ⟨12, _⟩ => ⟨S128, .f32⟩
  | .local _ .vmem, ⟨13, _⟩ => ⟨S128x128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19_0 : Ref sig .tc := ⟨.hbm, 42, rfl⟩
abbrev main_v19_1 : Ref sig .tc := ⟨.hbm, 43, rfl⟩
abbrev main_cst_4 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_6 : Ref sig .tc := ⟨.hbm, 50, rfl⟩
abbrev main_v24 : Ref sig .tc := ⟨.hbm, 51, rfl⟩
abbrev main_v25 : Ref sig .tc := ⟨.hbm, 52, rfl⟩
abbrev main_c_7 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_8 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_9 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S5000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x128.size a ≤ S50000x128.size a
  hwx0_13 : ∀ i : grid0.Coords, EltTy.bits .f32 = 32 ∨ (Rect.block (s := S50000x128) S5000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x128.size a ≤ S50000x128.size a
  hwx0_14 : ∀ i : grid0.Coords, EltTy.bits .f32 = 32 ∨ (Rect.block (s := S50000x128) S5000x128.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v19_0) S5000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v19_1) S5000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v19_1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19_0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg16) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩

abbrev nBuf : Space → Nat
  | .hbm => 156
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .i1⟩
  | 24 => ⟨S_, .f32⟩
  | 25 => ⟨S50000x128, .f32⟩
  | 26 => ⟨S50000x128, .i1⟩
  | 27 => ⟨S_, .f32⟩
  | 28 => ⟨S_, .f32⟩
  | 29 => ⟨S50000x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S800000, .f32⟩
  | 42 => ⟨S_, .f32⟩
  | 43 => ⟨S50000, .f32⟩
  | 44 => ⟨S800000x1, .i32⟩
  | 45 => ⟨S50000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S_, .f32⟩
  | 60 => ⟨S50000, .f32⟩
  | 61 => ⟨S50000, .f32⟩
  | 62 => ⟨S50000x1, .f32⟩
  | 63 => ⟨S50000x128, .f32⟩
  | 64 => ⟨S50000x128, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .i1⟩
  | 74 => ⟨S_, .f32⟩
  | 75 => ⟨S50000x128, .f32⟩
  | 76 => ⟨S50000x128, .i1⟩
  | 77 => ⟨S_, .f32⟩
  | 78 => ⟨S_, .f32⟩
  | 79 => ⟨S50000x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S50000x128, .f32⟩
  | 92 => ⟨S50000x128, .i1⟩
  | 93 => ⟨S_, .f32⟩
  | 94 => ⟨S50000x128, .f32⟩
  | 95 => ⟨S50000x128, .i1⟩
  | 96 => ⟨S_, .f32⟩
  | 97 => ⟨S_, .f32⟩
  | 98 => ⟨S50000x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .i1⟩
  | 112 => ⟨S_, .f32⟩
  | 113 => ⟨S50000x128, .f32⟩
  | 114 => ⟨S50000x128, .i1⟩
  | 115 => ⟨S_, .f32⟩
  | 116 => ⟨S_, .f32⟩
  | 117 => ⟨S50000x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S50000x128, .f32⟩
  | 124 => ⟨S_, .f32⟩
  | 125 => ⟨S800000, .f32⟩
  | 126 => ⟨S_, .f32⟩
  | 127 => ⟨S50000, .f32⟩
  | _ => ⟨S50000x128, .f32⟩

abbrev hbmTy0_1 (i : Nat) : BufTy := match i % 128 with
  | 0 => ⟨S800000x1, .i32⟩
  | 1 => ⟨S50000, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S_, .f32⟩
  | 16 => ⟨S50000, .f32⟩
  | 17 => ⟨S50000, .f32⟩
  | 18 => ⟨S50000x1, .f32⟩
  | 19 => ⟨S50000x128, .f32⟩
  | 20 => ⟨S50000x128, .f32⟩
  | 21 => ⟨S50000x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_cst_1 : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_v4 : Ref sig .tc := ⟨.hbm, 30, rfl⟩
abbrev main_call0_v5 : Ref sig .tc := ⟨.hbm, 31, rfl⟩
abbrev main_call0_cst_2 : Ref sig .tc := ⟨.hbm, 32, rfl⟩
abbrev main_call0_v6 : Ref sig .tc := ⟨.hbm, 33, rfl⟩
abbrev main_call0_v7 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst : Ref sig .tc := ⟨.hbm, 40, rfl⟩
abbrev main_v9 : Ref sig .tc := ⟨.hbm, 41, rfl⟩
abbrev main_cst_0 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_c : Ref sig .tc := ⟨.hbm, 46, rfl⟩
abbrev main_v13 : Ref sig .tc := ⟨.hbm, 47, rfl⟩
abbrev main_v14 : Ref sig .tc := ⟨.hbm, 48, rfl⟩
abbrev main_c_1 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_2 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_3 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_cst_0 : Ref sig .tc := ⟨.hbm, 74, rfl⟩
abbrev main_call1_v2 : Ref sig .tc := ⟨.hbm, 75, rfl⟩
abbrev main_call1_v3 : Ref sig .tc := ⟨.hbm, 76, rfl⟩
abbrev main_call1_cst_1 : Ref sig .tc := ⟨.hbm, 77, rfl⟩
abbrev main_call1_call0_v0 : Ref sig .tc := ⟨.hbm, 78, rfl⟩
abbrev main_call1_call0_v1 : Ref sig .tc := ⟨.hbm, 79, rfl⟩
abbrev main_call1_v4 : Ref sig .tc := ⟨.hbm, 80, rfl⟩
abbrev main_call1_v5 : Ref sig .tc := ⟨.hbm, 81, rfl⟩
abbrev main_call1_cst_2 : Ref sig .tc := ⟨.hbm, 82, rfl⟩
abbrev main_call1_v6 : Ref sig .tc := ⟨.hbm, 83, rfl⟩
abbrev main_call1_v7 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_cst_0 : Ref sig .tc := ⟨.hbm, 93, rfl⟩
abbrev main_call2_v2 : Ref sig .tc := ⟨.hbm, 94, rfl⟩
abbrev main_call2_v3 : Ref sig .tc := ⟨.hbm, 95, rfl⟩
abbrev main_call2_cst_1 : Ref sig .tc := ⟨.hbm, 96, rfl⟩
abbrev main_call2_call0_v0 : Ref sig .tc := ⟨.hbm, 97, rfl⟩
abbrev main_call2_call0_v1 : Ref sig .tc := ⟨.hbm, 98, rfl⟩
abbrev main_call2_v4 : Ref sig .tc := ⟨.hbm, 99, rfl⟩
abbrev main_call2_v5 : Ref sig .tc := ⟨.hbm, 100, rfl⟩
abbrev main_call2_cst_2 : Ref sig .tc := ⟨.hbm, 101, rfl⟩
abbrev main_call2_v6 : Ref sig .tc := ⟨.hbm, 102, rfl⟩
abbrev main_call2_v7 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_call3_cst : Ref sig .tc := ⟨.hbm, 109, rfl⟩
abbrev main_call3_v0 : Ref sig .tc := ⟨.hbm, 110, rfl⟩
abbrev main_call3_v1 : Ref sig .tc := ⟨.hbm, 111, rfl⟩
abbrev main_call3_cst_0 : Ref sig .tc := ⟨.hbm, 112, rfl⟩
abbrev main_call3_v2 : Ref sig .tc := ⟨.hbm, 113, rfl⟩
abbrev main_call3_v3 : Ref sig .tc := ⟨.hbm, 114, rfl⟩
abbrev main_call3_cst_1 : Ref sig .tc := ⟨.hbm, 115, rfl⟩
abbrev main_call3_call0_v0 : Ref sig .tc := ⟨.hbm, 116, rfl⟩
abbrev main_call3_call0_v1 : Ref sig .tc := ⟨.hbm, 117, rfl⟩
abbrev main_call3_v4 : Ref sig .tc := ⟨.hbm, 118, rfl⟩
abbrev main_call3_v5 : Ref sig .tc := ⟨.hbm, 119, rfl⟩
abbrev main_call3_cst_2 : Ref sig .tc := ⟨.hbm, 120, rfl⟩
abbrev main_call3_v6 : Ref sig .tc := ⟨.hbm, 121, rfl⟩
abbrev main_call3_v7 : Ref sig .tc := ⟨.hbm, 122, rfl⟩
abbrev main_v44 : Ref sig .tc := ⟨.hbm, 123, rfl⟩
abbrev main_cst_4 : Ref sig .tc := ⟨.hbm, 124, rfl⟩
abbrev main_v45 : Ref sig .tc := ⟨.hbm, 125, rfl⟩
abbrev main_cst_5 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_c_6 : Ref sig .tc := ⟨.hbm, 130, rfl⟩
abbrev main_v49 : Ref sig .tc := ⟨.hbm, 131, rfl⟩
abbrev main_v50 : Ref sig .tc := ⟨.hbm, 132, rfl⟩
abbrev main_c_7 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_cst_8 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_cst_9 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The tiled program's run with its result named.

  The program is four stretches in order: host operations, the first tiled stage, host operations, the second
  tiled stage. Each stretch takes the buffers' contents at its start to their contents at its end, so the whole
  run ends with every buffer at the last boundary's contents: the arguments as launched, and the result buffer
  at what the second stage's write-backs leave in it.
-/
import proofs.«103860_j12326556140089_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's
    contents and the arguments as launched. -/
theorem run_main : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c)⟩)

end Cert.KernelIdeal.KRun

end
-- ==== Proof.Spec.lean ====
/-
  The residual graph block, row by row, on the extended reals.

  A node's feature row has 128 entries. Every dense stage of the block acts on each row by itself:
  a product with a 128×128 weight matrix (entry `c` of the new row is `Σ_k row[k] · W[k, c]`), a bias added
  entry by entry, and the activation `elu x = x` for `x > 0` and `eˣ − 1` otherwise. The only stage that mixes
  rows is the neighbourhood mean, which enters here as a second array `g` of rows given from outside.

  The functions below are stated for an array of `R` rows, any `R`, so that the same text describes a tile of
  rows and the whole array; `pick` takes rows out of a taller array, and every stage commutes with it.
-/
import Idealize.ShloMosaic.PureOps.Ideal.Laws
import Idealize.ShloMosaic.Lib.ValueIdx

noncomputable section

open scoped BigOperators

namespace Cert.Spec

open Idealize.ShloMosaic Idealize.ShloMosaic.ValueIdx

/-- `R` feature rows. -/
abbrev Rows (R : Nat) := FVec Ideal ⟨2, ![R, 128]⟩ .f32
/-- A weight matrix. -/
abbrev Mat := FVec Ideal ⟨2, ![128, 128]⟩ .f32
/-- A bias row. -/
abbrev Bias := FVec Ideal ⟨1, ![128]⟩ .f32

variable {R : Nat}

/-- Rows times a matrix: entry `(p, c)` is `Σ_k a[p, k] · w[k, c]`. -/
def mm (a : Rows R) (w : Mat) : Rows R := fun i => ∑ k : Fin 128, a (ix2 (i 0) k) * w (ix2 k (i 1))

/-- A bias row added to every row. -/
def addBias (a : Rows R) (b : Bias) : Rows R := fun i => a i + b (ix1 (i 1))

/-- The activation on one extended real: the identity above zero, `eˣ − 1` elsewhere. -/
def eluE (x : EReal) : EReal := if 0 < x then x else Ideal.exp x - 1

/-- The activation, entry by entry. -/
def elu (a : Rows R) : Rows R := fun i => eluE (a i)

/-- A linear layer: product, then bias. -/
def lin (a : Rows R) (w : Mat) (b : Bias) : Rows R := addBias (mm a w) b

/-- The skip branch: linear, activation, linear. -/
def skip (h : Rows R) (W1 : Mat) (b1 : Bias) (W2 : Mat) (b2 : Bias) : Rows R := lin (elu (lin h W1 b1)) W2 b2

/-- A mean-aggregating graph convolution given the aggregated rows `g`: own rows through `Ws`, aggregated rows
    through `Wn`, the two products added, then the bias. -/
def conv (h g : Rows R) (Ws Wn : Mat) (b : Bias) : Rows R := addBias (fun i => mm h Ws i + mm g Wn i) b

/-- The feature branch: the first convolution, activation, and the two-layer self-interaction with its activations. -/
def feat (h g : Rows R) (Ws Wn : Mat) (b : Bias) (W3 : Mat) (b3 : Bias) (W4 : Mat) (b4 : Bias) : Rows R :=
  elu (lin (elu (lin (elu (conv h g Ws Wn b)) W3 b3)) W4 b4)

/-- The block's result: the skip branch plus the second convolution of the features `x` with their aggregate `g`. -/
def out (s x g : Rows R) (Ws Wn : Mat) (b : Bias) : Rows R := fun i => s i + conv x g Ws Wn b i

/-- The whole block given the neighbourhood mean `A` as a function of an array of rows. -/
def block (A : Rows R → Rows R) (h : Rows R) (Wk1 : Mat) (bk1 : Bias) (Wk2 : Mat) (bk2 : Bias)
    (Ws1 Wn1 : Mat) (bc1 : Bias) (W3 : Mat) (b3 : Bias) (W4 : Mat) (b4 : Bias) (Ws2 Wn2 : Mat) (bc2 : Bias) : Rows R :=
  out (skip h Wk1 bk1 Wk2 bk2) (feat h (A h) Ws1 Wn1 bc1 W3 b3 W4 b4)
    (A (feat h (A h) Ws1 Wn1 bc1 W3 b3 W4 b4)) Ws2 Wn2 bc2

/-! ## Rows taken out of a taller array -/

variable {R' : Nat}

/-- The rows `ρ 0, ρ 1, …` of `a`. -/
def pick (ρ : Fin R' → Fin R) (a : Rows R) : Rows R' := fun y => a (ix2 (ρ (y 0)) (y 1))

theorem pick_apply (ρ : Fin R' → Fin R) (a : Rows R) (p : Fin R') (c : Fin 128) : pick ρ a (ix2 p c) = a (ix2 (ρ p) c) := rfl

theorem pick_mm (ρ : Fin R' → Fin R) (a : Rows R) (w : Mat) : mm (pick ρ a) w = pick ρ (mm a w) := rfl

theorem pick_addBias (ρ : Fin R' → Fin R) (a : Rows R) (b : Bias) : addBias (pick ρ a) b = pick ρ (addBias a b) := rfl

theorem pick_elu (ρ : Fin R' → Fin R) (a : Rows R) : elu (pick ρ a) = pick ρ (elu a) := rfl

theorem pick_lin (ρ : Fin R' → Fin R) (a : Rows R) (w : Mat) (b : Bias) : lin (pick ρ a) w b = pick ρ (lin a w b) := rfl

theorem pick_skip (ρ : Fin R' → Fin R) (h : Rows R) (W1 : Mat) (b1 : Bias) (W2 : Mat) (b2 : Bias) :
    skip (pick ρ h) W1 b1 W2 b2 = pick ρ (skip h W1 b1 W2 b2) := rfl

theorem pick_conv (ρ : Fin R' → Fin R) (h g : Rows R) (Ws Wn : Mat) (b : Bias) :
    conv (pick ρ h) (pick ρ g) Ws Wn b = pick ρ (conv h g Ws Wn b) := rfl

theorem pick_feat (ρ : Fin R' → Fin R) (h g : Rows R) (Ws Wn : Mat) (b : Bias) (W3 : Mat) (b3 : Bias) (W4 : Mat) (b4 : Bias) :
    feat (pick ρ h) (pick ρ g) Ws Wn b W3 b3 W4 b4 = pick ρ (feat h g Ws Wn b W3 b3 W4 b4) := rfl

theorem pick_out (ρ : Fin R' → Fin R) (s x g : Rows R) (Ws Wn : Mat) (b : Bias) :
    out (pick ρ s) (pick ρ x) (pick ρ g) Ws Wn b = pick ρ (out s x g Ws Wn b) := rfl

end Cert.Spec

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibRowBias.lean ====
/-
  A bias row read at an index: a vector of length `C`, viewed as a `1×C` matrix and repeated down `R`
  rows, holds the vector's entry `c` at every position `(p, c)`.
-/
import Idealize.ShloMosaic.Lib.Pipeline.Value
import Idealize.ShloMosaic.Lib.ValueLayout
import Idealize.ShloMosaic.Lib.ValueIdx

noncomputable section

namespace Cert.RowBias

open Idealize.ShloMosaic Idealize.ShloMosaic.ValueIdx

/-- Entry `(p, c)` of a length-`C` vector reshaped to `1×C` and broadcast to `R×C` is the vector's entry `c`
    (for `C ≠ 1`: an axis of extent one would be read at coordinate zero, which is the same entry, but the
    broadcast rule branches on it). -/
theorem bias_rows {α : Type} {R C : Nat} (hC : C ≠ 1) (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) := by
  rw [broadcastTo_apply _ hb (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  exact shapeCast_a_1a_apply v hs 0 c

end Cert.RowBias

end
-- ==== Proof.KPay.lean ====
/-
  What each kernel body computes from the tiles it loads, as functions of rows.

  A body works on a tile of 5000 rows. Its matrix products round both operands to a shorter format first and
  accumulate from zero; on the extended reals the rounding is the identity and the product of a tile with a
  weight matrix is the plain row-by-matrix sum. A bias vector is reshaped to one row and repeated down the
  tile. The activation is written as a comparison with zero selecting between the value and `eˣ − 1`.
  With these three readings each stored value is one of the row functions of `Cert.Spec` applied to the
  loaded tiles.
-/
import proofs.«103860_j12326556140089_1_alg».proof.Proof.Gen.KernelIdeal.Skeleton
import proofs.«103860_j12326556140089_1_alg».proof.Proof.Spec
import proofs.«103860_j12326556140089_1_alg».proof.Proof.LibPlainDot
import proofs.«103860_j12326556140089_1_alg».proof.Proof.LibRowBias
import Idealize.ShloMosaic.PureOps.IdealRules
import Idealize.ShloMosaic.Lib.Pipeline.Value

noncomputable section

namespace Cert.KernelIdeal.KPay

open Cert.KernelIdeal Cert.KernelIdeal.Gen Idealize.ShloMosaic Idealize.ShloMosaic.ValueIdx

/-- The tile product contracts the tile's columns against the matrix's rows and has no batch axes. -/
theorem plain : Cert.PlainDot.IsPlain dot_S5000x128_S128x128_S5000x128_1_0_0_1_n_n := ⟨rfl, rfl, rfl, rfl, rfl, rfl⟩

/-- A tile times a weight matrix, both rounded on the way in, accumulated from zero: the row-by-matrix sum. -/
theorem matmul_eq (a : FVec Ideal S5000x128 .f32) (w : FVec Ideal S128x128 .f32) :
    matmul dot_S5000x128_S128x128_S5000x128_1_0_0_1_n_n none (truncf .bf16 a bitsLt_bf16_f32) (truncf .bf16 w bitsLt_bf16_f32)
      (constant S5000x128 .f32 0x00000000#32) = Cert.Spec.mm a w := by
  funext i
  obtain ⟨p, c, rfl⟩ : ∃ (p : Fin 5000) (c : Fin 128), i = ix2 p c := ⟨i 0, i 1, eq_ix2 i⟩
  exact Cert.PlainDot.matmul_zero_apply plain none _ _ p c

/-- A bias vector as one row, repeated down the tile and added. -/
theorem bias_eq (a : FVec Ideal S5000x128 .f32) (b : FVec Ideal S128 .f32) :
    addf a (broadcastTo S5000x128 (shapeCast S1x128 b shapeCasts_S128_S1x128) broadcasts_S1x128_S5000x128) = Cert.Spec.addBias a b := by
  funext i
  obtain ⟨p, c, rfl⟩ : ∃ (p : Fin 5000) (c : Fin 128), i = ix2 p c := ⟨i 0, i 1, eq_ix2 i⟩
  show a (ix2 p c) + broadcastTo S5000x128 (shapeCast S1x128 b shapeCasts_S128_S1x128) broadcasts_S1x128_S5000x128 (ix2 p c) = a (ix2 p c) + b (ix1 c)
  rw [Cert.RowBias.bias_rows (by decide) b shapeCasts_S128_S1x128 broadcasts_S1x128_S5000x128 p c]

/-- The activation on one value: the comparison with the zero pattern selects the value itself above zero and
    `eˣ` minus the one pattern elsewhere. -/
theorem elu_scalar (x : EReal) :
    Scalar.select (Ideal.cmp .ogt x (Ideal.ofBits .f32 0x00000000#32)) x (Ideal.exp x - Ideal.ofBits .f32 0x3F800000#32) = Cert.Spec.eluE x := by
  have h1 : Ideal.ofBits .f32 0x3F800000#32 = 1 := IdealRules.sign_bit.ideal_onePat .f32
  rw [Ideal.ofBits_zero_f32, h1]
  unfold Cert.Spec.eluE Ideal.cmp
  by_cases h : (0 : EReal) < x
  · simp [h, Scalar.select]
  · simp [h, Scalar.select]

/-- The activation over a tile. -/
theorem elu_eq (a : FVec Ideal S5000x128 .f32) :
    select (cmpf .ogt a (broadcast S5000x128 (Scalar.ofBits .f32 0x00000000#32))) a
      (subf (exp a) (broadcast S5000x128 (Scalar.ofBits .f32 0x3F800000#32))) = Cert.Spec.elu a := by
  funext i
  exact elu_scalar (a i)

/-- The skip branch's stored tile. -/
theorem pay3_eq (x0 : Vec Ideal S5000x128 .f32) (W1 : Vec Ideal S128x128 .f32) (b1 : Vec Ideal S128 .f32) (W2 : Vec Ideal S128x128 .f32) (b2 : Vec Ideal S128 .f32) :
    k0_pay3 x0 W1 b1 W2 b2 = Cert.Spec.skip x0 W1 b1 W2 b2 := by
  unfold k0_pay3 k0_pay2
  simp only [matmul_eq, bias_eq, elu_eq]
  rfl

/-- The feature branch's stored tile: the two products of the first convolution, then bias, activation and the
    two-layer self-interaction. -/
theorem pay14_eq (x0 x1 : Vec Ideal S5000x128 .f32) (Ws Wn : Vec Ideal S128x128 .f32) (bc : Vec Ideal S128 .f32)
    (W3 : Vec Ideal S128x128 .f32) (b3 : Vec Ideal S128 .f32) (W4 : Vec Ideal S128x128 .f32) (b4 : Vec Ideal S128 .f32) :
    k0_pay1 (k0_pay4 x0 x1 Ws Wn) bc W3 b3 W4 b4 = Cert.Spec.feat x0 x1 Ws Wn bc W3 b3 W4 b4 := by
  unfold k0_pay1 k0_pay4 k0_pay2
  simp only [shapeCast_self, matmul_eq, bias_eq, elu_eq]
  rfl

/-- The second stage's stored tile: the skip tile plus the second convolution. -/
theorem pay1'_eq (x g : Vec Ideal S5000x128 .f32) (Ws Wn : Vec Ideal S128x128 .f32) (b : Vec Ideal S128 .f32) (s : Vec Ideal S5000x128 .f32) :
    k1_pay1 x g Ws Wn b s = Cert.Spec.out s x g Ws Wn b := by
  unfold k1_pay1
  simp only [shapeCast_self, matmul_eq, bias_eq]
  rfl

end Cert.KernelIdeal.KPay

end
-- ==== Proof.KReg0.lean ====
/-
  The first tiled stage, read as whole arrays.

  The stage walks ten tiles of 5000 rows. At tile `t` every row-shaped operand and result window holds rows
  `5000·t … 5000·t + 4999` of its array, and every weight or bias window holds its whole array. The body's
  stored tiles are row functions of the loaded tiles, and a row function of picked rows is the picked rows of
  the row function of the whole array; so what tile `t` writes back is tile `t` of ONE array-level function of
  the stage's input arrays. The ten tiles cover every row, so each result array ends holding that function.
-/
import proofs.«103860_j12326556140089_1_alg».proof.Proof.Gen.KernelIdeal.Frame
import proofs.«103860_j12326556140089_1_alg».proof.Proof.KPay
import Idealize.ShloMosaic.Lib.Pipeline.Value

set_option maxRecDepth 16384

noncomputable section

namespace Cert.KernelIdeal.KReg0

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Row `p` of tile `t` is row `5000·t + p` of the array. -/
def rowOf (t : Fin cfg0.N) (p : Fin 5000) : Fin 50000 :=
  ⟨5000 * t.val + p.val, by have h : t.val < 10 := lt_of_lt_of_eq t.isLt N_0; have := p.isLt; omega⟩

/-- The tiled windows sit at tile `t` along the rows and at zero along the columns. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

/-- The weight and bias windows never move. -/
theorem idx_whole : ∀ t : Fin cfg0.N,
    (win0_2.index t (0 : Fin 2) = 0 ∧ win0_2.index t (1 : Fin 2) = 0) ∧ win0_3.index t (0 : Fin 1) = 0
    ∧ (win0_4.index t (0 : Fin 2) = 0 ∧ win0_4.index t (1 : Fin 2) = 0) ∧ win0_5.index t (0 : Fin 1) = 0
    ∧ (win0_6.index t (0 : Fin 2) = 0 ∧ win0_6.index t (1 : Fin 2) = 0)
    ∧ (win0_7.index t (0 : Fin 2) = 0 ∧ win0_7.index t (1 : Fin 2) = 0) ∧ win0_8.index t (0 : Fin 1) = 0
    ∧ (win0_9.index t (0 : Fin 2) = 0 ∧ win0_9.index t (1 : Fin 2) = 0) ∧ win0_10.index t (0 : Fin 1) = 0
    ∧ (win0_11.index t (0 : Fin 2) = 0 ∧ win0_11.index t (1 : Fin 2) = 0) ∧ win0_12.index t (0 : Fin 1) = 0 :=
  (by decide +kernel : ∀ t : Fin grid0.N, _)

/-! ## The tiles the body loads -/

theorem iblk_0 (c : Dev nD) (t : Fin cfg0.N) :
    (iblk0 V c 0 t : Vec Ideal S5000x128 .f32) = Cert.Spec.pick (rowOf t) (V c main_arg0) := by
  funext y
  show V c main_arg0 (((cfg0.win 0).blk t).view.emb y) = V c main_arg0 (ix2 (rowOf t (y 0)) (y 1))
  refine congrArg (V c main_arg0) ?_
  funext a; apply Fin.ext
  match a with
  | ⟨0, _⟩ => show win0_0.index t (0 : Fin 2) * 5000 + 1 * (y 0).val = 5000 * t.val + (y 0).val; rw [(idx_rows t).1.1]; omega
  | ⟨1, _⟩ => show win0_0.index t (1 : Fin 2) * 128 + 1 * (y 1).val = (y 1).val; rw [(idx_rows t).1.2]; omega

theorem iblk_1 (c : Dev nD) (t : Fin cfg0.N) :
    (iblk0 V c 1 t : Vec Ideal S5000x128 .f32) = Cert.Spec.pick (rowOf t) (V c main_v18) := by
  funext y
  show V c main_v18 (((cfg0.win 1).blk t).view.emb y) = V c main_v18 (ix2 (rowOf t (y 0)) (y 1))
  refine congrArg (V c main_v18) ?_
  funext a; apply Fin.ext
  match a with
  | ⟨0, _⟩ => show win0_1.index t (0 : Fin 2) * 5000 + 1 * (y 0).val = 5000 * t.val + (y 0).val; rw [(idx_rows t).2.1.1]; omega
  | ⟨1, _⟩ => show win0_1.index t (1 : Fin 2) * 128 + 1 * (y 1).val = (y 1).val; rw [(idx_rows t).2.1.2]; omega

theorem iblk_2 (c : Dev nD) (t : Fin cfg0.N) : (iblk0 V c 2 t : Vec Ideal S128x128 .f32) = V c main_arg3 := by
  funext y
  show V c main_arg3 (((cfg0.win 2).blk t).view.emb y) = V c main_arg3 y
  refine congrArg (V c main_arg3) ?_
  funext a; apply Fin.ext
  match a with
  | ⟨0, _⟩ => show win0_2.index t (0 : Fin 2) * 128 + 1 * (y 0).val = (y 0).val; rw [(idx_whole t).1.1]; omega
  | ⟨1, _⟩ => show win0_2.index t (1 : Fin 2) * 128 + 1 * (y 1).val = (y 1).val; rw [(idx_whole t).1.2]; omega

theorem iblk_3 (c : Dev nD) (t : Fin cfg0.N) : (iblk0 V c 3 t : Vec Ideal S128 .f32) = V c main_arg4 := by
  funext y
  show V c main_arg4 (((cfg0.win 3).blk t).view.emb y) = V c main_arg4 y
  refine congrArg (V c main_arg4) ?_
  funext a; apply Fin.ext
  match a with
  | ⟨0, _⟩ => show win0_3.index t (0 : Fin 1) * 128 + 1 * (y 0).val = (y 0).val; rw [(idx_whole t).2.1]; omega

theorem iblk_4 (c : Dev nD) (t : Fin cfg0.N) : (iblk0 V c 4 t : Vec Ideal S128x128 .f32) = V c main_arg5 := by
  funext y
  show V c main_arg5 (((cfg0.win 4).blk t).view.emb y) = V c main_arg5 y
  refine congrArg (V c main_arg5) ?_
  funext a; apply Fin.ext
  match a with
  | ⟨0, _⟩ => show win0_4.index t (0 : Fin 2) * 128 + 1 * (y 0).val = (y 0).val; rw [(idx_whole t).2.2.1.1]; omega
  | ⟨1, _⟩ => show win0_4.index t (1 : Fin 2) * 128 + 1 * (y 1).val = (y 1).val; rw [(idx_whole t).2.2.1.2]; omega

theorem iblk_5 (c : Dev nD) (t : Fin cfg0.N) : (iblk0 V c 5 t : Vec Ideal S128 .f32) = V c main_arg6 := by
  funext y
  show V c main_arg6 (((cfg0.win 5).blk t).view.emb y) = V c main_arg6 y
  refine congrArg (V c main_arg6) ?_
  funext a; apply Fin.ext
  match a with
  | ⟨0, _⟩ => show win0_5.index t (0 : Fin 1) * 128 + 1 * (y 0).val = (y 0).val; rw [(idx_whole t).2.2.2.1]; omega

theorem iblk_6 (c : Dev nD) (t : Fin cfg0.N) : (iblk0 V c 6 t : Vec Ideal S128x128 .f32) = V c main_arg7 := by
  funext y
  show V c main_arg7 (((cfg0.win 6).blk t).view.emb y) = V c main_arg7 y
  refine congrArg (V c main_arg7) ?_
  funext a; apply Fin.ext
  match a with
  | ⟨0, _⟩ => show win0_6.index t (0 : Fin 2) * 128 + 1 * (y 0).val = (y 0).val; rw [(idx_whole t).2.2.2.2.1.1]; omega
  | ⟨1, _⟩ => show win0_6.index t (1 : Fin 2) * 128 + 1 * (y 1).val = (y 1).val; rw [(idx_whole t).2.2.2.2.1.2]; omega

theorem iblk_7 (c : Dev nD) (t : Fin cfg0.N) : (iblk0 V c 7 t : Vec Ideal S128x128 .f32) = V c main_arg8 := by
  funext y
  show V c main_arg8 (((cfg0.win 7).blk t).view.emb y) = V c main_arg8 y
  refine congrArg (V c main_arg8) ?_
  funext a; apply Fin.ext
  match a with
  | ⟨0, _⟩ => show win0_7.index t (0 : Fin 2) * 128 + 1 * (y 0).val = (y 0).val; rw [(idx_whole t).2.2.2.2.2.1.1]; omega
  | ⟨1, _⟩ => show win0_7.index t (1 : Fin 2) * 128 + 1 * (y 1).val = (y 1).val; rw [(idx_whole t).2.2.2.2.2.1.2]; omega

theorem iblk_8 (c : Dev nD) (t : Fin cfg0.N) : (iblk0 V c 8 t : Vec Ideal S128 .f32) = V c main_arg9 := by
  funext y
  show V c main_arg9 (((cfg0.win 8).blk t).view.emb y) = V c main_arg9 y
  refine congrArg (V c main_arg9) ?_
  funext a; apply Fin.ext
  match a with
  | ⟨0, _⟩ => show win0_8.index t (0 : Fin 1) * 128 + 1 * (y 0).val = (y 0).val; rw [(idx_whole t).2.2.2.2.2.2.1]; omega

theorem iblk_9 (c : Dev nD) (t : Fin cfg0.N) : (iblk0 V c 9 t : Vec Ideal S128x128 .f32) = V c main_arg10 := by
  funext y
  show V c main_arg10 (((cfg0.win 9).blk t).view.emb y) = V c main_arg10 y
  refine congrArg (V c main_arg10) ?_
  funext a; apply Fin.ext
  match a with
  | ⟨0, _⟩ => show win0_9.index t (0 : Fin 2) * 128 + 1 * (y 0).val = (y 0).val; rw [(idx_whole t).2.2.2.2.2.2.2.1.1]; omega
  | ⟨1, _⟩ => show win0_9.index t (1 : Fin 2) * 128 + 1 * (y 1).val = (y 1).val; rw [(idx_whole t).2.2.2.2.2.2.2.1.2]; omega

theorem iblk_10 (c : Dev nD) (t : Fin cfg0.N) : (iblk0 V c 10 t : Vec Ideal S128 .f32) = V c main_arg11 := by
  funext y
  show V c main_arg11 (((cfg0.win 10).blk t).view.emb y) = V c main_arg11 y
  refine congrArg (V c main_arg11) ?_
  funext a; apply Fin.ext
  match a with
  | ⟨0, _⟩ => show win0_10.index t (0 : Fin 1) * 128 + 1 * (y 0).val = (y 0).val; rw [(idx_whole t).2.2.2.2.2.2.2.2.1]; omega

theorem iblk_11 (c : Dev nD) (t : Fin cfg0.N) : (iblk0 V c 11 t : Vec Ideal S128x128 .f32) = V c main_arg12 := by
  funext y
  show V c main_arg12 (((cfg0.win 11).blk t).view.emb y) = V c main_arg12 y
  refine congrArg (V c main_arg12) ?_
  funext a; apply Fin.ext
  match a with
  | ⟨0, _⟩ => show win0_11.index t (0 : Fin 2) * 128 + 1 * (y 0).val = (y 0).val; rw [(idx_whole t).2.2.2.2.2.2.2.2.2.1.1]; omega
  | ⟨1, _⟩ => show win0_11.index t (1 : Fin 2) * 128 + 1 * (y 1).val = (y 1).val; rw [(idx_whole t).2.2.2.2.2.2.2.2.2.1.2]; omega

theorem iblk_12 (c : Dev nD) (t : Fin cfg0.N) : (iblk0 V c 12 t : Vec Ideal S128 .f32) = V c main_arg13 := by
  funext y
  show V c main_arg13 (((cfg0.win 12).blk t).view.emb y) = V c main_arg13 y
  refine congrArg (V c main_arg13) ?_
  funext a; apply Fin.ext
  match a with
  | ⟨0, _⟩ => show win0_12.index t (0 : Fin 1) * 128 + 1 * (y 0).val = (y 0).val; rw [(idx_whole t).2.2.2.2.2.2.2.2.2.2]; omega

/-! ## The two result arrays -/

/-- Tile `t` of any array of rows, read through result window 13. -/
theorem read_13 (t : Fin cfg0.N) (A : Cert.Spec.Rows 50000) :
    ((cfg0.win 13).blk t).view.read (Elt Ideal) A = Cert.Spec.pick (rowOf t) A := by
  funext y
  show A (((cfg0.win 13).blk t).view.emb y) = A (ix2 (rowOf t (y 0)) (y 1))
  refine congrArg A ?_
  funext a; apply Fin.ext
  match a with
  | ⟨0, _⟩ => show win0_13.index t (0 : Fin 2) * 5000 + 1 * (y 0).val = 5000 * t.val + (y 0).val; rw [(idx_rows t).2.2.1.1]; omega
  | ⟨1, _⟩ => show win0_13.index t (1 : Fin 2) * 128 + 1 * (y 1).val = (y 1).val; rw [(idx_rows t).2.2.1.2]; omega

/-- What tile `t` writes back through window 13 is tile `t` of the array-level function. -/
theorem flushed_13 (c : Dev nD) (t : Fin cfg0.N) :
    (dat0 V c).flushed 13 t = ((cfg0.win 13).blk t).view.read (Elt Ideal) (Cert.Spec.skip (V c main_arg0) (V c main_arg3) (V c main_arg4) (V c main_arg5) (V c main_arg6)) := by
  show (cfg0.win 13).cut (grid0.coords t) ((dat0 V c).after 13 t) = _
  rw [after0_13, read_13]
  unfold out0_13
  rw [View.canon_unit_zero hz2]
  simp only [View.ld_unit_zero (S := S5000x128) hz2, View.ld_unit_zero (S := S128x128) hz2, View.ld_unit_zero (S := S128) hz1]
  rw [KPay.pay3_eq, iblk_0, iblk_2, iblk_3, iblk_4, iblk_5]
  exact Cert.Spec.pick_skip _ _ _ _ _ _

/-- Every row lies in some tile. -/
theorem cover_13 (i : S50000x128.Idx) : ∃ t : Fin cfg0.N, (cfg0.win 13).flush t = true ∧ i ∈ ((cfg0.win 13).blk t).view.set := by
  have hi0 : (i 0).val < 50000 := (i 0).isLt
  have hi1 : (i 1).val < 128 := (i 1).isLt
  have hN : cfg0.N = 10 := N_0
  have ht : (i 0).val / 5000 < cfg0.N := by rw [hN]; omega
  refine ⟨⟨(i 0).val / 5000, ht⟩, flush0_13 _, ?_⟩
  show i ∈ ((View.whole main_v19_0).slice (win0_13.rect ⟨(i 0).val / 5000, ht⟩)).set
  rw [View.set_slice_whole, Rect.mem_set_unit]
  obtain ⟨e0, e1⟩ := (idx_rows ⟨(i 0).val / 5000, ht⟩).2.2.1
  intro a
  match a with
  | ⟨0, _⟩ =>
    show win0_13.index ⟨(i 0).val / 5000, ht⟩ (0 : Fin 2) * 5000 ≤ (i 0).val ∧ (i 0).val < win0_13.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_13.index ⟨(i 0).val / 5000, ht⟩ (1 : Fin 2) * 128 ≤ (i 1).val ∧ (i 1).val < win0_13.index ⟨(i 0).val / 5000, ht⟩ (1 : Fin 2) * 128 + 128
    rw [e1]; omega

/-- The array after the stage. -/
theorem final_13 (c : Dev nD) : (dat0 V c).arrAt 13 cfg0.N = Cert.Spec.skip (V c main_arg0) (V c main_arg3) (V c main_arg4) (V c main_arg5) (V c main_arg6) :=
  (dat0 V c).arrAt_eq_of_cover 13 (Cert.Spec.skip (V c main_arg0) (V c main_arg3) (V c main_arg4) (V c main_arg5) (V c main_arg6)) (fun t _ => flushed_13 V c t) cover_13

/-- Tile `t` of any array of rows, read through result window 14. -/
theorem read_14 (t : Fin cfg0.N) (A : Cert.Spec.Rows 50000) :
    ((cfg0.win 14).blk t).view.read (Elt Ideal) A = Cert.Spec.pick (rowOf t) A := by
  funext y
  show A (((cfg0.win 14).blk t).view.emb y) = A (ix2 (rowOf t (y 0)) (y 1))
  refine congrArg A ?_
  funext a; apply Fin.ext
  match a with
  | ⟨0, _⟩ => show win0_14.index t (0 : Fin 2) * 5000 + 1 * (y 0).val = 5000 * t.val + (y 0).val; rw [(idx_rows t).2.2.2.1]; omega
  | ⟨1, _⟩ => show win0_14.index t (1 : Fin 2) * 128 + 1 * (y 1).val = (y 1).val; rw [(idx_rows t).2.2.2.2]; omega

/-- What tile `t` writes back through window 14 is tile `t` of the array-level function. -/
theorem flushed_14 (c : Dev nD) (t : Fin cfg0.N) :
    (dat0 V c).flushed 14 t = ((cfg0.win 14).blk t).view.read (Elt Ideal) (Cert.Spec.feat (V c main_arg0) (V c main_v18) (V c main_arg7) (V c main_arg8) (V c main_arg9) (V c main_arg10) (V c main_arg11) (V c main_arg12) (V c main_arg13)) := by
  show (cfg0.win 14).cut (grid0.coords t) ((dat0 V c).after 14 t) = _
  rw [after0_14, read_14]
  unfold out0_14
  rw [View.canon_unit_zero hz2]
  simp only [View.ld_unit_zero (S := S5000x128) hz2, View.ld_unit_zero (S := S128x128) hz2, View.ld_unit_zero (S := S128) hz1]
  rw [KPay.pay14_eq, iblk_0, iblk_1, iblk_6, iblk_7, iblk_8, iblk_9, iblk_10, iblk_11, iblk_12]
  exact Cert.Spec.pick_feat _ _ _ _ _ _ _ _ _ _

/-- Every row lies in some tile. -/
theorem cover_14 (i : S50000x128.Idx) : ∃ t : Fin cfg0.N, (cfg0.win 14).flush t = true ∧ i ∈ ((cfg0.win 14).blk t).view.set := by
  have hi0 : (i 0).val < 50000 := (i 0).isLt
  have hi1 : (i 1).val < 128 := (i 1).isLt
  have hN : cfg0.N = 10 := N_0
  have ht : (i 0).val / 5000 < cfg0.N := by rw [hN]; omega
  refine ⟨⟨(i 0).val / 5000, ht⟩, flush0_14 _, ?_⟩
  show i ∈ ((View.whole main_v19_1).slice (win0_14.rect ⟨(i 0).val / 5000, ht⟩)).set
  rw [View.set_slice_whole, Rect.mem_set_unit]
  obtain ⟨e0, e1⟩ := (idx_rows ⟨(i 0).val / 5000, ht⟩).2.2.2
  intro a
  match a with
  | ⟨0, _⟩ =>
    show win0_14.index ⟨(i 0).val / 5000, ht⟩ (0 : Fin 2) * 5000 ≤ (i 0).val ∧ (i 0).val < win0_14.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_14.index ⟨(i 0).val / 5000, ht⟩ (1 : Fin 2) * 128 ≤ (i 1).val ∧ (i 1).val < win0_14.index ⟨(i 0).val / 5000, ht⟩ (1 : Fin 2) * 128 + 128
    rw [e1]; omega

/-- The array after the stage. -/
theorem final_14 (c : Dev nD) : (dat0 V c).arrAt 14 cfg0.N = Cert.Spec.feat (V c main_arg0) (V c main_v18) (V c main_arg7) (V c main_arg8) (V c main_arg9) (V c main_arg10) (V c main_arg11) (V c main_arg12) (V c main_arg13) :=
  (dat0 V c).arrAt_eq_of_cover 14 (Cert.Spec.feat (V c main_arg0) (V c main_v18) (V c main_arg7) (V c main_arg8) (V c main_arg9) (V c main_arg10) (V c main_arg11) (V c main_arg12) (V c main_arg13)) (fun t _ => flushed_14 V c t) cover_14

end Cert.KernelIdeal.KReg0

end
-- ==== Proof.KReg1.lean ====
/-
  The second tiled stage, read as a whole array.

  Again ten tiles of 5000 rows. Tile `t` loads rows `5000·t … 5000·t + 4999` of the feature rows, of their
  neighbourhood mean and of the skip branch, and the two weight matrices and the bias whole; it stores the skip
  tile plus the second convolution of the feature tile. That is a row function of the loaded tiles, so tile `t`
  of the result is tile `t` of the row function of the three whole arrays, and the tiles cover the result.
-/
import proofs.«103860_j12326556140089_1_alg».proof.Proof.Gen.KernelIdeal.Frame
import proofs.«103860_j12326556140089_1_alg».proof.Proof.KPay
import Idealize.ShloMosaic.Lib.Pipeline.Value

set_option maxRecDepth 16384

noncomputable section

namespace Cert.KernelIdeal.KReg1

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Row `p` of tile `t` is row `5000·t + p` of the array. -/
def rowOf (t : Fin cfg1.N) (p : Fin 5000) : Fin 50000 :=
  ⟨5000 * t.val + p.val, by have h : t.val < 10 := lt_of_lt_of_eq t.isLt N_1; have := p.isLt; omega⟩

/-- The tiled windows sit at tile `t` along the rows and at zero along the columns. -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_6.index t (0 : Fin 2) = t.val ∧ win1_6.index t (1 : Fin 2) = 0) :=
  (by decide +kernel : ∀ t : Fin grid1.N, _)

/-- The weight and bias windows never move. -/
theorem idx_whole : ∀ t : Fin cfg1.N,
    (win1_3.index t (0 : Fin 2) = 0 ∧ win1_3.index t (1 : Fin 2) = 0)
    ∧ (win1_4.index t (0 : Fin 2) = 0 ∧ win1_4.index t (1 : Fin 2) = 0) ∧ win1_5.index t (0 : Fin 1) = 0 :=
  (by decide +kernel : ∀ t : Fin grid1.N, _)

/-! ## The tiles the body loads -/

/-- The feature rows' tile. -/
theorem iblk_0 (c : Dev nD) (t : Fin cfg1.N) :
    (iblk1 V c 0 t : Vec Ideal S5000x128 .f32) = Cert.Spec.pick (rowOf t) (V c main_v19_1) := by
  funext y
  show V c main_v19_1 (((cfg1.win 0).blk t).view.emb y) = V c main_v19_1 (ix2 (rowOf t (y 0)) (y 1))
  refine congrArg (V c main_v19_1) ?_
  funext a; apply Fin.ext
  match a with
  | ⟨0, _⟩ => show win1_0.index t (0 : Fin 2) * 5000 + 1 * (y 0).val = 5000 * t.val + (y 0).val; rw [(idx_rows t).1.1]; omega
  | ⟨1, _⟩ => show win1_0.index t (1 : Fin 2) * 128 + 1 * (y 1).val = (y 1).val; rw [(idx_rows t).1.2]; omega

/-- The neighbourhood mean's tile. -/
theorem iblk_1 (c : Dev nD) (t : Fin cfg1.N) :
    (iblk1 V c 1 t : Vec Ideal S5000x128 .f32) = Cert.Spec.pick (rowOf t) (V c main_v38) := by
  funext y
  show V c main_v38 (((cfg1.win 1).blk t).view.emb y) = V c main_v38 (ix2 (rowOf t (y 0)) (y 1))
  refine congrArg (V c main_v38) ?_
  funext a; apply Fin.ext
  match a with
  | ⟨0, _⟩ => show win1_1.index t (0 : Fin 2) * 5000 + 1 * (y 0).val = 5000 * t.val + (y 0).val; rw [(idx_rows t).2.1.1]; omega
  | ⟨1, _⟩ => show win1_1.index t (1 : Fin 2) * 128 + 1 * (y 1).val = (y 1).val; rw [(idx_rows t).2.1.2]; omega

/-- The skip branch's tile. -/
theorem iblk_2 (c : Dev nD) (t : Fin cfg1.N) :
    (iblk1 V c 2 t : Vec Ideal S5000x128 .f32) = Cert.Spec.pick (rowOf t) (V c main_v19_0) := by
  funext y
  show V c main_v19_0 (((cfg1.win 2).blk t).view.emb y) = V c main_v19_0 (ix2 (rowOf t (y 0)) (y 1))
  refine congrArg (V c main_v19_0) ?_
  funext a; apply Fin.ext
  match a with
  | ⟨0, _⟩ => show win1_2.index t (0 : Fin 2) * 5000 + 1 * (y 0).val = 5000 * t.val + (y 0).val; rw [(idx_rows t).2.2.1.1]; omega
  | ⟨1, _⟩ => show win1_2.index t (1 : Fin 2) * 128 + 1 * (y 1).val = (y 1).val; rw [(idx_rows t).2.2.1.2]; omega

/-- The own-rows weight matrix, whole. -/
theorem iblk_3 (c : Dev nD) (t : Fin cfg1.N) : (iblk1 V c 3 t : Vec Ideal S128x128 .f32) = V c main_arg14 := by
  funext y
  show V c main_arg14 (((cfg1.win 3).blk t).view.emb y) = V c main_arg14 y
  refine congrArg (V c main_arg14) ?_
  funext a; apply Fin.ext
  match a with
  | ⟨0, _⟩ => show win1_3.index t (0 : Fin 2) * 128 + 1 * (y 0).val = (y 0).val; rw [(idx_whole t).1.1]; omega
  | ⟨1, _⟩ => show win1_3.index t (1 : Fin 2) * 128 + 1 * (y 1).val = (y 1).val; rw [(idx_whole t).1.2]; omega

/-- The aggregated-rows weight matrix, whole. -/
theorem iblk_4 (c : Dev nD) (t : Fin cfg1.N) : (iblk1 V c 4 t : Vec Ideal S128x128 .f32) = V c main_arg15 := by
  funext y
  show V c main_arg15 (((cfg1.win 4).blk t).view.emb y) = V c main_arg15 y
  refine congrArg (V c main_arg15) ?_
  funext a; apply Fin.ext
  match a with
  | ⟨0, _⟩ => show win1_4.index t (0 : Fin 2) * 128 + 1 * (y 0).val = (y 0).val; rw [(idx_whole t).2.1.1]; omega
  | ⟨1, _⟩ => show win1_4.index t (1 : Fin 2) * 128 + 1 * (y 1).val = (y 1).val; rw [(idx_whole t).2.1.2]; omega

/-- The bias, whole. -/
theorem iblk_5 (c : Dev nD) (t : Fin cfg1.N) : (iblk1 V c 5 t : Vec Ideal S128 .f32) = V c main_arg16 := by
  funext y
  show V c main_arg16 (((cfg1.win 5).blk t).view.emb y) = V c main_arg16 y
  refine congrArg (V c main_arg16) ?_
  funext a; apply Fin.ext
  match a with
  | ⟨0, _⟩ => show win1_5.index t (0 : Fin 1) * 128 + 1 * (y 0).val = (y 0).val; rw [(idx_whole t).2.2]; omega

/-! ## The result array -/

/-- Tile `t` of any array of rows, read through the result window. -/
theorem read_6 (t : Fin cfg1.N) (A : Cert.Spec.Rows 50000) :
    ((cfg1.win 6).blk t).view.read (Elt Ideal) A = Cert.Spec.pick (rowOf t) A := by
  funext y
  show A (((cfg1.win 6).blk t).view.emb y) = A (ix2 (rowOf t (y 0)) (y 1))
  refine congrArg A ?_
  funext a; apply Fin.ext
  match a with
  | ⟨0, _⟩ => show win1_6.index t (0 : Fin 2) * 5000 + 1 * (y 0).val = 5000 * t.val + (y 0).val; rw [(idx_rows t).2.2.2.1]; omega
  | ⟨1, _⟩ => show win1_6.index t (1 : Fin 2) * 128 + 1 * (y 1).val = (y 1).val; rw [(idx_rows t).2.2.2.2]; omega

/-- What tile `t` writes back is tile `t` of the skip rows plus the second convolution of the feature rows. -/
theorem flushed_6 (c : Dev nD) (t : Fin cfg1.N) :
    (dat1 V c).flushed 6 t = ((cfg1.win 6).blk t).view.read (Elt Ideal)
      (Cert.Spec.out (V c main_v19_0) (V c main_v19_1) (V c main_v38) (V c main_arg14) (V c main_arg15) (V c main_arg16)) := by
  show (cfg1.win 6).cut (grid1.coords t) ((dat1 V c).after 6 t) = _
  rw [after1_6, read_6]
  unfold out1_6
  rw [View.canon_unit_zero hz2]
  simp only [View.ld_unit_zero (S := S5000x128) hz2, View.ld_unit_zero (S := S128x128) hz2, View.ld_unit_zero (S := S128) hz1]
  rw [KPay.pay1'_eq, iblk_0, iblk_1, iblk_2, iblk_3, iblk_4, iblk_5]
  exact Cert.Spec.pick_out _ _ _ _ _ _ _

/-- Every row lies in some tile. -/
theorem cover_6 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  have ht : (i 0).val / 5000 < cfg1.N := by rw [hN]; omega
  refine ⟨⟨(i 0).val / 5000, ht⟩, flush1_6 _, ?_⟩
  show i ∈ ((View.whole main_v39).slice (win1_6.rect ⟨(i 0).val / 5000, ht⟩)).set
  rw [View.set_slice_whole, Rect.mem_set_unit]
  obtain ⟨e0, e1⟩ := (idx_rows ⟨(i 0).val / 5000, ht⟩).2.2.2
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e1]; omega

/-- The result array after the stage. -/
theorem final_6 (c : Dev nD) : (dat1 V c).arrAt 6 cfg1.N
    = Cert.Spec.out (V c main_v19_0) (V c main_v19_1) (V c main_v38) (V c main_arg14) (V c main_arg15) (V c main_arg16) :=
  (dat1 V c).arrAt_eq_of_cover 6 _ (fun t _ => flushed_6 V c t) cover_6

end Cert.KernelIdeal.KReg1

end
-- ==== Proof.Agg.lean ====
/-
  The neighbourhood mean of a graph, as a host computation, kept as ONE function.

  Given an array of node features, a source index and a destination index per edge, the mean over incoming
  edges is: gather the source node's feature row for every edge (a negative index wrapped by the node count
  first), add the gathered rows into the destination node's bucket, count the edges arriving at each node in
  the same way, and divide each bucket by its count clamped below at one.

  Two programs that both apply this chain to equal features and equal index arrays get equal means; nothing
  more about the chain is ever needed, so it is stated once, over any dimension records of the right type,
  and never opened.
-/
import Idealize.ShloMosaic.PureOps.Ideal
import Idealize.ShloMosaic.PureOps.Vector

noncomputable section

namespace Cert.Agg

open Idealize.ShloMosaic

abbrev SN : Shape := ⟨1, ![50000]⟩
abbrev SE : Shape := ⟨1, ![800000]⟩
abbrev SE1 : Shape := ⟨2, ![800000, 1]⟩
abbrev SN1 : Shape := ⟨2, ![50000, 1]⟩
abbrev SND : Shape := ⟨2, ![50000, 128]⟩
abbrev SED : Shape := ⟨2, ![800000, 128]⟩
abbrev S0 : Shape := ⟨0, ![]⟩

/-- The mean over incoming edges of the rows of `feat`: per-node edge counts by a scatter-add of ones, the
    gathered source rows scatter-added by destination, the quotient by the count clamped at one. -/
def aggOf (sdeg : ScatterDims SN SE1 SE) (gd : GatherDims SND SE1 SED ) (srow : ScatterDims SND SE1 SED)
    (hE : S0.BroadcastsInDim SE (![] : Fin 0 → Fin SE.rank)) (hN : S0.BroadcastsInDim SN (![] : Fin 0 → Fin SN.rank))
    (hND : S0.BroadcastsInDim SND (![] : Fin 0 → Fin SND.rank)) (hE1 : SE.BroadcastsInDim SE1 (![0] : Fin 1 → Fin SE1.rank))
    (hN1 : SN.BroadcastsInDim SN1 (![0] : Fin 1 → Fin SN1.rank)) (hN1D : SN1.BroadcastsInDim SND (![0, 1] : Fin 2 → Fin SND.rank))
    (feat : FVec Ideal SND .f32) (src dst : IVec SE 32) : FVec Ideal SND .f32 :=
  Host.divf
    (Host.scatterAdd srow (broadcastInDim SND ![] hND (constant (F := Ideal) S0 .f32 0x00000000#32)) (broadcastInDim SE1 ![0] hE1 dst)
      (Host.gather gd feat (broadcastInDim SE1 ![0] hE1
        (select (cmpi .slt src (broadcastInDim SE ![] hE (constantI S0 32 0#32)))
          (addi src (broadcastInDim SE ![] hE (constantI S0 32 50000#32))) src))))
    (broadcastInDim SND ![0, 1] hN1D (broadcastInDim SN1 ![0] hN1
      (maximumf
        (Host.scatterAdd sdeg (broadcastInDim SN ![] hN (constant (F := Ideal) S0 .f32 0x00000000#32)) (broadcastInDim SE1 ![0] hE1 dst)
          (broadcastInDim SE ![] hE (constant (F := Ideal) S0 .f32 0x3F800000#32)))
        (broadcastInDim SN ![] hN (constant (F := Ideal) S0 .f32 0x3F800000#32)))))

end Cert.Agg

end
-- ==== Proof.KHost.lean ====
/-
  The two stretches of host operations between the tiled stages.

  Each stretch computes one neighbourhood mean: the first from the input features, the second from the feature
  rows the first stage produced; both from the same two edge-index arrays. Read over any contents of the
  buffers at the stretch's start, the stretch's last result is the mean (`Cert.Agg.aggOf` at this program's
  dimension records) of those contents, and every buffer the stretch does not write keeps its contents.
-/
import proofs.«103860_j12326556140089_1_alg».proof.Proof.Gen.KernelIdeal.Launch
import proofs.«103860_j12326556140089_1_alg».proof.Proof.Spec
import proofs.«103860_j12326556140089_1_alg».proof.Proof.Agg
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

/-- This program's neighbourhood mean of an array of rows, at edge arrays `src`, `dst`. -/
def aggK (src dst : IVec S800000 32) (f : Cert.Spec.Rows 50000) : Cert.Spec.Rows 50000 :=
  Cert.Agg.aggOf scatter_S50000_S800000x1_S800000_n_0_0_1 gather_S50000x128_S800000x1_S800000x128_1_0_n_n_0_1_1128
    scatter_S50000x128_S800000x1_S800000x128_1_0_0_1 bcast_S_S800000 bcast_S_S50000 bcast_S_S50000x128
    bcast_S800000_S800000x1_0 bcast_S50000_S50000x1_0 bcast_S50000x1_S50000x128_0_1 f src dst

variable (W : Valuation τ sig (Elt Ideal))

/-! ## The first stretch -/

set_option maxHeartbeats 2000000 in
/-- Its last result is the mean of the input features. -/
theorem host0_mean : StableHlo.after (hostOps0 (F := Ideal)) W (Proc.devRef .tc main_v18)
    = aggK (W (Proc.devRef .tc main_arg1)) (W (Proc.devRef .tc main_arg2)) (W (Proc.devRef .tc main_arg0)) := by
  after_results_simp
  rfl

/-- It writes no argument. -/
theorem host0_main_arg0 : StableHlo.after (hostOps0 (F := Ideal)) W (Proc.devRef .tc main_arg0) = W (Proc.devRef .tc main_arg0) := by after_results
theorem host0_main_arg1 : StableHlo.after (hostOps0 (F := Ideal)) W (Proc.devRef .tc main_arg1) = W (Proc.devRef .tc main_arg1) := by after_results
theorem host0_main_arg2 : StableHlo.after (hostOps0 (F := Ideal)) W (Proc.devRef .tc main_arg2) = W (Proc.devRef .tc main_arg2) := by after_results
theorem host0_main_arg3 : StableHlo.after (hostOps0 (F := Ideal)) W (Proc.devRef .tc main_arg3) = W (Proc.devRef .tc main_arg3) := by after_results
theorem host0_main_arg4 : StableHlo.after (hostOps0 (F := Ideal)) W (Proc.devRef .tc main_arg4) = W (Proc.devRef .tc main_arg4) := by after_results
theorem host0_main_arg5 : StableHlo.after (hostOps0 (F := Ideal)) W (Proc.devRef .tc main_arg5) = W (Proc.devRef .tc main_arg5) := by after_results
theorem host0_main_arg6 : StableHlo.after (hostOps0 (F := Ideal)) W (Proc.devRef .tc main_arg6) = W (Proc.devRef .tc main_arg6) := by after_results
theorem host0_main_arg7 : StableHlo.after (hostOps0 (F := Ideal)) W (Proc.devRef .tc main_arg7) = W (Proc.devRef .tc main_arg7) := by after_results
theorem host0_main_arg8 : StableHlo.after (hostOps0 (F := Ideal)) W (Proc.devRef .tc main_arg8) = W (Proc.devRef .tc main_arg8) := by after_results
theorem host0_main_arg9 : StableHlo.after (hostOps0 (F := Ideal)) W (Proc.devRef .tc main_arg9) = W (Proc.devRef .tc main_arg9) := by after_results
theorem host0_main_arg10 : StableHlo.after (hostOps0 (F := Ideal)) W (Proc.devRef .tc main_arg10) = W (Proc.devRef .tc main_arg10) := by after_results
theorem host0_main_arg11 : StableHlo.after (hostOps0 (F := Ideal)) W (Proc.devRef .tc main_arg11) = W (Proc.devRef .tc main_arg11) := by after_results
theorem host0_main_arg12 : StableHlo.after (hostOps0 (F := Ideal)) W (Proc.devRef .tc main_arg12) = W (Proc.devRef .tc main_arg12) := by after_results
theorem host0_main_arg13 : StableHlo.after (hostOps0 (F := Ideal)) W (Proc.devRef .tc main_arg13) = W (Proc.devRef .tc main_arg13) := by after_results
theorem host0_main_arg14 : StableHlo.after (hostOps0 (F := Ideal)) W (Proc.devRef .tc main_arg14) = W (Proc.devRef .tc main_arg14) := by after_results
theorem host0_main_arg15 : StableHlo.after (hostOps0 (F := Ideal)) W (Proc.devRef .tc main_arg15) = W (Proc.devRef .tc main_arg15) := by after_results
theorem host0_main_arg16 : StableHlo.after (hostOps0 (F := Ideal)) W (Proc.devRef .tc main_arg16) = W (Proc.devRef .tc main_arg16) := by after_results

/-! ## The second stretch -/

set_option maxHeartbeats 2000000 in
/-- Its last result is the mean of the first stage's feature rows. -/
theorem host1_mean : StableHlo.after (hostOps1 (F := Ideal)) W (Proc.devRef .tc main_v38)
    = aggK (W (Proc.devRef .tc main_arg1)) (W (Proc.devRef .tc main_arg2)) (W (Proc.devRef .tc main_v19_1)) := by
  after_results_simp
  rfl

/-- It writes neither of the first stage's results nor an argument. -/
theorem host1_main_v19_0 : StableHlo.after (hostOps1 (F := Ideal)) W (Proc.devRef .tc main_v19_0) = W (Proc.devRef .tc main_v19_0) := by after_results
theorem host1_main_v19_1 : StableHlo.after (hostOps1 (F := Ideal)) W (Proc.devRef .tc main_v19_1) = W (Proc.devRef .tc main_v19_1) := by after_results
theorem host1_main_arg14 : StableHlo.after (hostOps1 (F := Ideal)) W (Proc.devRef .tc main_arg14) = W (Proc.devRef .tc main_arg14) := by after_results
theorem host1_main_arg15 : StableHlo.after (hostOps1 (F := Ideal)) W (Proc.devRef .tc main_arg15) = W (Proc.devRef .tc main_arg15) := by after_results
theorem host1_main_arg16 : StableHlo.after (hostOps1 (F := Ideal)) W (Proc.devRef .tc main_arg16) = W (Proc.devRef .tc main_arg16) := by after_results

end Cert.KernelIdeal.KHost

end
-- ==== Proof.KValue.lean ====
/-
  The tiled program's result as one function of its arguments.

  Walking back from the end: the result buffer holds what the second stage leaves, a row function of the
  feature rows, their mean and the skip rows as the second stage finds them; the second host stretch computed
  that mean from the feature rows and changed nothing else; the feature rows and the skip rows are what the
  first stage left, row functions of the input features, their mean and the weights; the first host stretch
  computed that mean from the input features; and no stretch or stage writes an argument. Put together, the
  result is `Cert.Spec.block` of the arguments with this program's neighbourhood mean.
-/
import proofs.«103860_j12326556140089_1_alg».proof.Proof.KRun
import proofs.«103860_j12326556140089_1_alg».proof.Proof.KReg0
import proofs.«103860_j12326556140089_1_alg».proof.Proof.KReg1
import proofs.«103860_j12326556140089_1_alg».proof.Proof.KHost

set_option maxRecDepth 16384

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## At the first stage's entry -/

theorem V1_main_arg0 : V1 m ρ c main_arg0 = m ((c : Thread nD τ).loc main_arg0) := KHost.host0_main_arg0 (W0 m ρ c)
theorem V1_main_arg1 : V1 m ρ c main_arg1 = m ((c : Thread nD τ).loc main_arg1) := KHost.host0_main_arg1 (W0 m ρ c)
theorem V1_main_arg2 : V1 m ρ c main_arg2 = m ((c : Thread nD τ).loc main_arg2) := KHost.host0_main_arg2 (W0 m ρ c)
theorem V1_main_arg3 : V1 m ρ c main_arg3 = m ((c : Thread nD τ).loc main_arg3) := KHost.host0_main_arg3 (W0 m ρ c)
theorem V1_main_arg4 : V1 m ρ c main_arg4 = m ((c : Thread nD τ).loc main_arg4) := KHost.host0_main_arg4 (W0 m ρ c)
theorem V1_main_arg5 : V1 m ρ c main_arg5 = m ((c : Thread nD τ).loc main_arg5) := KHost.host0_main_arg5 (W0 m ρ c)
theorem V1_main_arg6 : V1 m ρ c main_arg6 = m ((c : Thread nD τ).loc main_arg6) := KHost.host0_main_arg6 (W0 m ρ c)
theorem V1_main_arg7 : V1 m ρ c main_arg7 = m ((c : Thread nD τ).loc main_arg7) := KHost.host0_main_arg7 (W0 m ρ c)
theorem V1_main_arg8 : V1 m ρ c main_arg8 = m ((c : Thread nD τ).loc main_arg8) := KHost.host0_main_arg8 (W0 m ρ c)
theorem V1_main_arg9 : V1 m ρ c main_arg9 = m ((c : Thread nD τ).loc main_arg9) := KHost.host0_main_arg9 (W0 m ρ c)
theorem V1_main_arg10 : V1 m ρ c main_arg10 = m ((c : Thread nD τ).loc main_arg10) := KHost.host0_main_arg10 (W0 m ρ c)
theorem V1_main_arg11 : V1 m ρ c main_arg11 = m ((c : Thread nD τ).loc main_arg11) := KHost.host0_main_arg11 (W0 m ρ c)
theorem V1_main_arg12 : V1 m ρ c main_arg12 = m ((c : Thread nD τ).loc main_arg12) := KHost.host0_main_arg12 (W0 m ρ c)
theorem V1_main_arg13 : V1 m ρ c main_arg13 = m ((c : Thread nD τ).loc main_arg13) := KHost.host0_main_arg13 (W0 m ρ c)
theorem V1_main_arg14 : V1 m ρ c main_arg14 = m ((c : Thread nD τ).loc main_arg14) := KHost.host0_main_arg14 (W0 m ρ c)
theorem V1_main_arg15 : V1 m ρ c main_arg15 = m ((c : Thread nD τ).loc main_arg15) := KHost.host0_main_arg15 (W0 m ρ c)
theorem V1_main_arg16 : V1 m ρ c main_arg16 = m ((c : Thread nD τ).loc main_arg16) := KHost.host0_main_arg16 (W0 m ρ c)

/-- The first mean, of the input features. -/
theorem V1_mean : V1 m ρ c main_v18
    = KHost.aggK (m ((c : Thread nD τ).loc main_arg1)) (m ((c : Thread nD τ).loc main_arg2)) (m ((c : Thread nD τ).loc main_arg0)) :=
  KHost.host0_mean (W0 m ρ c)

/-! ## At the first stage's exit -/

/-- The skip rows. -/
theorem W2_skip : W2 m ρ c (Proc.devRef .tc main_v19_0)
    = Cert.Spec.skip (m ((c : Thread nD τ).loc main_arg0)) (m ((c : Thread nD τ).loc main_arg3)) (m ((c : Thread nD τ).loc main_arg4))
        (m ((c : Thread nD τ).loc main_arg5)) (m ((c : Thread nD τ).loc main_arg6)) := by
  refine ((W2_arr m ρ c 13).trans (KReg0.final_13 (V1 m ρ) c)).trans ?_
  rw [V1_main_arg0, V1_main_arg3, V1_main_arg4, V1_main_arg5, V1_main_arg6]

/-- The feature rows. -/
theorem W2_feat : W2 m ρ c (Proc.devRef .tc main_v19_1)
    = Cert.Spec.feat (m ((c : Thread nD τ).loc main_arg0))
        (KHost.aggK (m ((c : Thread nD τ).loc main_arg1)) (m ((c : Thread nD τ).loc main_arg2)) (m ((c : Thread nD τ).loc main_arg0)))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12))
        (m ((c : Thread nD τ).loc main_arg13)) := by
  refine ((W2_arr m ρ c 14).trans (KReg0.final_14 (V1 m ρ) c)).trans ?_
  rw [V1_main_arg0, V1_mean, V1_main_arg7, V1_main_arg8, V1_main_arg9, V1_main_arg10, V1_main_arg11, V1_main_arg12, V1_main_arg13]

/-- The first stage writes no argument. -/
theorem W2_main_arg1 : W2 m ρ c (Proc.devRef .tc main_arg1) = m ((c : Thread nD τ).loc main_arg1) :=
  (W2_of_ne m ρ c main_arg1 (by decide)).trans (V1_main_arg1 m ρ c)
theorem W2_main_arg2 : W2 m ρ c (Proc.devRef .tc main_arg2) = m ((c : Thread nD τ).loc main_arg2) :=
  (W2_of_ne m ρ c main_arg2 (by decide)).trans (V1_main_arg2 m ρ c)
theorem W2_main_arg14 : W2 m ρ c (Proc.devRef .tc main_arg14) = m ((c : Thread nD τ).loc main_arg14) :=
  (W2_of_ne m ρ c main_arg14 (by decide)).trans (V1_main_arg14 m ρ c)
theorem W2_main_arg15 : W2 m ρ c (Proc.devRef .tc main_arg15) = m ((c : Thread nD τ).loc main_arg15) :=
  (W2_of_ne m ρ c main_arg15 (by decide)).trans (V1_main_arg15 m ρ c)
theorem W2_main_arg16 : W2 m ρ c (Proc.devRef .tc main_arg16) = m ((c : Thread nD τ).loc main_arg16) :=
  (W2_of_ne m ρ c main_arg16 (by decide)).trans (V1_main_arg16 m ρ c)

/-! ## At the second stage's entry -/

theorem V3_skip : V3 m ρ c main_v19_0 = W2 m ρ c (Proc.devRef .tc main_v19_0) := KHost.host1_main_v19_0 (W2 m ρ c)
theorem V3_feat : V3 m ρ c main_v19_1 = W2 m ρ c (Proc.devRef .tc main_v19_1) := KHost.host1_main_v19_1 (W2 m ρ c)
theorem V3_main_arg14 : V3 m ρ c main_arg14 = m ((c : Thread nD τ).loc main_arg14) :=
  (KHost.host1_main_arg14 (W2 m ρ c)).trans (W2_main_arg14 m ρ c)
theorem V3_main_arg15 : V3 m ρ c main_arg15 = m ((c : Thread nD τ).loc main_arg15) :=
  (KHost.host1_main_arg15 (W2 m ρ c)).trans (W2_main_arg15 m ρ c)
theorem V3_main_arg16 : V3 m ρ c main_arg16 = m ((c : Thread nD τ).loc main_arg16) :=
  (KHost.host1_main_arg16 (W2 m ρ c)).trans (W2_main_arg16 m ρ c)

/-- The second mean, of the feature rows. -/
theorem V3_mean : V3 m ρ c main_v38
    = KHost.aggK (m ((c : Thread nD τ).loc main_arg1)) (m ((c : Thread nD τ).loc main_arg2)) (W2 m ρ c (Proc.devRef .tc main_v19_1)) := by
  refine (KHost.host1_mean (W2 m ρ c)).trans ?_
  rw [W2_main_arg1, W2_main_arg2]

/-! ## The result -/

/-- The result buffer at the end holds the block's function of the arguments. -/
theorem result_eq : W4 m ρ c (Proc.devRef .tc main_v39)
    = Cert.Spec.block (KHost.aggK (m ((c.tc : Thread nD τ).loc main_arg1)) (m ((c.tc : Thread nD τ).loc main_arg2)))
          (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  refine ((W4_arr m ρ c 6).trans (KReg1.final_6 (V3 m ρ) c)).trans ?_
  rw [V3_skip, V3_feat, V3_mean, V3_main_arg14, V3_main_arg15, V3_main_arg16, W2_skip, W2_feat]
  rfl

/-- The run: the result at the block's function of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v39)
        = Cert.Spec.block (KHost.aggK (m ((c.tc : Thread nD τ).loc main_arg1)) (m ((c.tc : Thread nD τ).loc main_arg2)))
          (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans (result_eq m ρ c), (h c).2⟩) (KRun.run_main m ρ)

end Cert.KernelIdeal.KValue

end
-- ==== Proof.RefRun.lean ====
/-
  The reference program as a straight line of host operations, and its run.

  The program's @main is printed in two windows and calls the activation four times; the activation's own
  body calls two selection functions. Written out at the call sites — each call's fifteen operations over
  that call's own buffers — @main is 139 operations in a row. They are listed here in order, cut into seven
  stretches at the points where few intermediate arrays are still needed, so that what a later stretch
  reads of an earlier one can be stated array by array.

  Every weakly fair execution of the program then terminates with each buffer holding the fold of the
  operations over the launch contents.
-/
import proofs.«103860_j12326556140089_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The skip branch: the first linear layer on the input rows (%0–%3), its activation (the first call), the second linear layer (%5–%8). -/
abbrev w0 : List (HloOp τ sig (Elt F)) :=
  [ StableHlo.binary main_arg0 main_arg3 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v3) main_call0.v0 main_call0.v1 (cmpf .ogt),
    TRef.nullary main_call0.cst_0 (constant S_ .f32 0x00000000#32),
    TRef.unary main_call0.cst_0 main_call0.v2 (broadcastInDim S50000x128 ![] bcast_S_S50000x128),
    TRef.binary (.of main_v3) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x128 ![] bcast_S_S50000x128),
    TRef.ternary main_call0.v3 main_call0.call0.v1 (.of main_v3) main_call0.call0.v2 select,
    TRef.unary main_call0.call0.v2 main_call0.v5 Host.expm1,
    TRef.nullary main_call0.cst_2 (constant S_ .f32 0x3F800000#32),
    TRef.unary main_call0.cst_2 main_call0.v6 (broadcastInDim S50000x128 ![] bcast_S_S50000x128),
    TRef.binary main_call0.v6 main_call0.v5 main_call0.v7 mulf,
    TRef.ternary main_call0.v1 (.of main_v3) main_call0.v7 main_call0.call1.v0 select,
    StableHlo.binary main_v4 main_arg5 main_v5 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S50000x128 ![0, 1] bcast_S1x128_S50000x128_0_1 : (⟨S1x128, .f32⟩ : BufTy).Contents (Elt F) → (⟨S50000x128, .f32⟩ : BufTy).Contents (Elt F)),
    StableHlo.binary main_v5 main_v7 main_v8 (addf : (⟨S50000x128, .f32⟩ : BufTy).Contents (Elt F) → (⟨S50000x128, .f32⟩ : BufTy).Contents (Elt F) → (⟨S50000x128, .f32⟩ : BufTy).Contents (Elt F)) ]

/-- The first neighbourhood mean, on the host (%cst … %27): edge counts by a scatter-add of ones, the source rows gathered and scatter-added by destination, the quotient by the clamped count. -/
abbrev w1 : List (HloOp τ sig (Elt F)) :=
  [ StableHlo.nullary main_cst (constant S_ .f32 0x3F800000#32),
    StableHlo.unary main_cst main_v9 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v10 (broadcastInDim S50000 ![] bcast_S_S50000 : (⟨S_, .f32⟩ : BufTy).Contents (Elt F) → (⟨S50000, .f32⟩ : BufTy).Contents (Elt F)),
    StableHlo.unary main_arg2 main_v11 (broadcastInDim S800000x1 ![0] bcast_S800000_S800000x1_0 : (⟨S800000, .i32⟩ : BufTy).Contents (Elt F) → (⟨S800000x1, .i32⟩ : BufTy).Contents (Elt F)),
    StableHlo.ternary main_v10 main_v11 main_v9 main_v12 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_c (constantI S_ 32 0#32),
    StableHlo.unary main_c main_v13 (broadcastInDim S800000 ![] bcast_S_S800000 : (⟨S_, .i32⟩ : BufTy).Contents (Elt F) → (⟨S800000, .i32⟩ : BufTy).Contents (Elt F)),
    StableHlo.binary main_arg1 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 50000#32),
    StableHlo.unary main_c_1 main_v15 (broadcastInDim S800000 ![] bcast_S_S800000 : (⟨S_, .i32⟩ : BufTy).Contents (Elt F) → (⟨S800000, .i32⟩ : BufTy).Contents (Elt F)),
    StableHlo.binary main_arg1 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_arg1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_arg0 main_v18 main_v19 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_2 (constant S_ .f32 0x00000000#32),
    StableHlo.unary main_cst_2 main_v20 (broadcastInDim S50000x128 ![] bcast_S_S50000x128 : (⟨S_, .f32⟩ : BufTy).Contents (Elt F) → (⟨S50000x128, .f32⟩ : BufTy).Contents (Elt F)),
    StableHlo.unary main_arg2 main_v21 (broadcastInDim S800000x1 ![0] bcast_S800000_S800000x1_0 : (⟨S800000, .i32⟩ : BufTy).Contents (Elt F) → (⟨S800000x1, .i32⟩ : BufTy).Contents (Elt F)),
    StableHlo.ternary main_v20 main_v21 main_v19 main_v22 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_3 (constant S_ .f32 0x3F800000#32),
    StableHlo.unary main_cst_3 main_v23 (broadcastInDim S50000 ![] bcast_S_S50000 : (⟨S_, .f32⟩ : BufTy).Contents (Elt F) → (⟨S50000, .f32⟩ : BufTy).Contents (Elt F)),
    StableHlo.binary main_v12 main_v23 main_v24 (maximumf : (⟨S50000, .f32⟩ : BufTy).Contents (Elt F) → (⟨S50000, .f32⟩ : BufTy).Contents (Elt F) → (⟨S50000, .f32⟩ : BufTy).Contents (Elt F)),
    StableHlo.unary main_v24 main_v25 (broadcastInDim S50000x1 ![0] bcast_S50000_S50000x1_0 : (⟨S50000, .f32⟩ : BufTy).Contents (Elt F) → (⟨S50000x1, .f32⟩ : BufTy).Contents (Elt F)),
    StableHlo.unary main_v25 main_v26 (broadcastInDim S50000x128 ![0, 1] bcast_S50000x1_S50000x128_0_1 : (⟨S50000x1, .f32⟩ : BufTy).Contents (Elt F) → (⟨S50000x128, .f32⟩ : BufTy).Contents (Elt F)),
    StableHlo.binary main_v22 main_v26 main_v27 (Host.divf : (⟨S50000x128, .f32⟩ : BufTy).Contents (Elt F) → (⟨S50000x128, .f32⟩ : BufTy).Contents (Elt F) → (⟨S50000x128, .f32⟩ : BufTy).Contents (Elt F)) ]

/-- The first convolution (%28–%33: own rows and aggregated rows through their matrices, the bias) and its activation (the second call). -/
abbrev w2 : List (HloOp τ sig (Elt F)) :=
  [ StableHlo.binary main_arg0 main_arg7 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v27 main_arg8 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v28 main_v29 main_v30 (addf : (⟨S50000x128, .f32⟩ : BufTy).Contents (Elt F) → (⟨S50000x128, .f32⟩ : BufTy).Contents (Elt F) → (⟨S50000x128, .f32⟩ : BufTy).Contents (Elt F)),
    StableHlo.unary main_arg9 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v32 main_v33 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v33) main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary (.of main_v33) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 (.of main_v33) main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 (.of main_v33) main_call1.v7 main_call1.call1.v0 select ]

/-- The first self-interaction layer (%35–%38) and its activation (the third call). -/
abbrev w3 : List (HloOp τ sig (Elt F)) :=
  [ StableHlo.binary main_v34 main_arg10 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v35 main_v37 main_v38 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v38) main_call2.v0 main_call2.v1 (cmpf .ogt),
    TRef.nullary main_call2.cst_0 (constant S_ .f32 0x00000000#32),
    TRef.unary main_call2.cst_0 main_call2.v2 (broadcastInDim S50000x128 ![] bcast_S_S50000x128),
    TRef.binary (.of main_v38) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S50000x128 ![] bcast_S_S50000x128),
    TRef.ternary main_call2.v3 main_call2.call0.v1 (.of main_v38) main_call2.call0.v2 select,
    TRef.unary main_call2.call0.v2 main_call2.v5 Host.expm1,
    TRef.nullary main_call2.cst_2 (constant S_ .f32 0x3F800000#32),
    TRef.unary main_call2.cst_2 main_call2.v6 (broadcastInDim S50000x128 ![] bcast_S_S50000x128),
    TRef.binary main_call2.v6 main_call2.v5 main_call2.v7 mulf,
    TRef.ternary main_call2.v1 (.of main_v38) main_call2.v7 main_call2.call1.v0 select ]

/-- The second self-interaction layer (%40–%43) and its activation (the fourth call). -/
abbrev w4 : List (HloOp τ sig (Elt F)) :=
  [ StableHlo.binary main_v39 main_arg12 main_v40 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v43) main_call3.v0 main_call3.v1 (cmpf .ogt),
    TRef.nullary main_call3.cst_0 (constant S_ .f32 0x00000000#32),
    TRef.unary main_call3.cst_0 main_call3.v2 (broadcastInDim S50000x128 ![] bcast_S_S50000x128),
    TRef.binary (.of main_v43) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S50000x128 ![] bcast_S_S50000x128),
    TRef.ternary main_call3.v3 main_call3.call0.v1 (.of main_v43) main_call3.call0.v2 select,
    TRef.unary main_call3.call0.v2 main_call3.v5 Host.expm1,
    TRef.nullary main_call3.cst_2 (constant S_ .f32 0x3F800000#32),
    TRef.unary main_call3.cst_2 main_call3.v6 (broadcastInDim S50000x128 ![] bcast_S_S50000x128),
    TRef.binary main_call3.v6 main_call3.v5 main_call3.v7 mulf,
    TRef.ternary main_call3.v1 (.of main_v43) main_call3.v7 main_call3.call1.v0 select ]

/-- The head of the second neighbourhood mean (%cst_4 … %50): the edge counts and the sign test on the source indices. -/
abbrev w5 : List (HloOp τ sig (Elt F)) :=
  [ StableHlo.nullary main_cst_4 (constant S_ .f32 0x3F800000#32),
    StableHlo.unary main_cst_4 main_v45 (broadcastInDim S800000 ![] bcast_S_S800000 : (⟨S_, .f32⟩ : BufTy).Contents (Elt F) → (⟨S800000, .f32⟩ : BufTy).Contents (Elt F)),
    StableHlo.nullary main_cst_5 (constant S_ .f32 0x00000000#32),
    StableHlo.unary main_cst_5 main_v46 (broadcastInDim S50000 ![] bcast_S_S50000 : (⟨S_, .f32⟩ : BufTy).Contents (Elt F) → (⟨S50000, .f32⟩ : BufTy).Contents (Elt F)),
    StableHlo.unary main_arg2 main_v47 (broadcastInDim S800000x1 ![0] bcast_S800000_S800000x1_0 : (⟨S800000, .i32⟩ : BufTy).Contents (Elt F) → (⟨S800000x1, .i32⟩ : BufTy).Contents (Elt F)),
    StableHlo.ternary main_v46 main_v47 main_v45 main_v48 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_c_6 (constantI S_ 32 0#32),
    StableHlo.unary main_c_6 main_v49 (broadcastInDim S800000 ![] bcast_S_S800000 : (⟨S_, .i32⟩ : BufTy).Contents (Elt F) → (⟨S800000, .i32⟩ : BufTy).Contents (Elt F)),
    StableHlo.binary main_arg1 main_v49 main_v50 (cmpi .slt : (⟨S800000, .i32⟩ : BufTy).Contents (Elt F) → (⟨S800000, .i32⟩ : BufTy).Contents (Elt F) → (⟨S800000, .i1⟩ : BufTy).Contents (Elt F)) ]

/-- The rest of the second neighbourhood mean (%c_7 … %63), the second convolution (%64–%69) and the sum with the skip branch (%70). -/
abbrev w6 : List (HloOp τ sig (Elt F)) :=
  [ StableHlo.nullary main_c_7 (constantI S_ 32 50000#32),
    StableHlo.unary main_c_7 main_v51 (broadcastInDim S800000 ![] bcast_S_S800000 : (⟨S_, .i32⟩ : BufTy).Contents (Elt F) → (⟨S800000, .i32⟩ : BufTy).Contents (Elt F)),
    StableHlo.binary main_arg1 main_v51 main_v52 (addi : (⟨S800000, .i32⟩ : BufTy).Contents (Elt F) → (⟨S800000, .i32⟩ : BufTy).Contents (Elt F) → (⟨S800000, .i32⟩ : BufTy).Contents (Elt F)),
    StableHlo.ternary main_v50 main_v52 main_arg1 main_v53 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v53 main_v54 (broadcastInDim S800000x1 ![0] bcast_S800000_S800000x1_0 : (⟨S800000, .i32⟩ : BufTy).Contents (Elt F) → (⟨S800000x1, .i32⟩ : BufTy).Contents (Elt F)),
    StableHlo.binary main_v44 main_v54 main_v55 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_8 (constant S_ .f32 0x00000000#32),
    StableHlo.unary main_cst_8 main_v56 (broadcastInDim S50000x128 ![] bcast_S_S50000x128 : (⟨S_, .f32⟩ : BufTy).Contents (Elt F) → (⟨S50000x128, .f32⟩ : BufTy).Contents (Elt F)),
    StableHlo.unary main_arg2 main_v57 (broadcastInDim S800000x1 ![0] bcast_S800000_S800000x1_0 : (⟨S800000, .i32⟩ : BufTy).Contents (Elt F) → (⟨S800000x1, .i32⟩ : BufTy).Contents (Elt F)),
    StableHlo.ternary main_v56 main_v57 main_v55 main_v58 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_9 (constant S_ .f32 0x3F800000#32),
    StableHlo.unary main_cst_9 main_v59 (broadcastInDim S50000 ![] bcast_S_S50000 : (⟨S_, .f32⟩ : BufTy).Contents (Elt F) → (⟨S50000, .f32⟩ : BufTy).Contents (Elt F)),
    StableHlo.binary main_v48 main_v59 main_v60 (maximumf : (⟨S50000, .f32⟩ : BufTy).Contents (Elt F) → (⟨S50000, .f32⟩ : BufTy).Contents (Elt F) → (⟨S50000, .f32⟩ : BufTy).Contents (Elt F)),
    StableHlo.unary main_v60 main_v61 (broadcastInDim S50000x1 ![0] bcast_S50000_S50000x1_0 : (⟨S50000, .f32⟩ : BufTy).Contents (Elt F) → (⟨S50000x1, .f32⟩ : BufTy).Contents (Elt F)),
    StableHlo.unary main_v61 main_v62 (broadcastInDim S50000x128 ![0, 1] bcast_S50000x1_S50000x128_0_1 : (⟨S50000x1, .f32⟩ : BufTy).Contents (Elt F) → (⟨S50000x128, .f32⟩ : BufTy).Contents (Elt F)),
    StableHlo.binary main_v58 main_v62 main_v63 (Host.divf : (⟨S50000x128, .f32⟩ : BufTy).Contents (Elt F) → (⟨S50000x128, .f32⟩ : BufTy).Contents (Elt F) → (⟨S50000x128, .f32⟩ : BufTy).Contents (Elt F)),
    StableHlo.binary main_v44 main_arg14 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v63 main_arg15 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v64 main_v65 main_v66 (addf : (⟨S50000x128, .f32⟩ : BufTy).Contents (Elt F) → (⟨S50000x128, .f32⟩ : BufTy).Contents (Elt F) → (⟨S50000x128, .f32⟩ : BufTy).Contents (Elt F)),
    StableHlo.unary main_arg16 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v66 main_v68 main_v69 (addf : (⟨S50000x128, .f32⟩ : BufTy).Contents (Elt F) → (⟨S50000x128, .f32⟩ : BufTy).Contents (Elt F) → (⟨S50000x128, .f32⟩ : BufTy).Contents (Elt F)),
    StableHlo.binary main_v8 main_v69 main_v70 (addf : (⟨S50000x128, .f32⟩ : BufTy).Contents (Elt F) → (⟨S50000x128, .f32⟩ : BufTy).Contents (Elt F) → (⟨S50000x128, .f32⟩ : BufTy).Contents (Elt F)) ]

/-- The operations of @main's first printed window, the four calls written out. -/
abbrev ops0 : List (HloOp τ sig (Elt F)) := w0 ++ (w1 ++ (w2 ++ (w3 ++ (w4 ++ w5))))

/-- @main's 139 operations, in order. -/
abbrev ops : List (HloOp τ sig (Elt F)) := ops0 ++ w6

set_option maxHeartbeats 4000000 in
/-- The first printed window is that straight line: the activation's definition and its two selection functions' unfolded at
    the calls and the buffer records at their fields, both sides are one chain of steps once the sequencing is
    re-associated. -/
theorem main_part0_eq (c : Dev nD) : main_part0 (F := F) c = seq ops0 := by
  simp only [main_part0, fn_elu.body, fn_where.body, fn_where_0.body, bind_assoc, pure_bind]
  rfl

set_option maxHeartbeats 4000000 in
/-- The second printed window has no call: it is its list as it stands. -/
theorem main_part1_eq (c : Dev nD) : main_part1 (F := F) c = seq w6 := rfl

/-- @main runs its two windows in order, which is the two lists joined. -/
theorem main_eq (c : Dev nD) : main (F := F) c = seq ops := by
  show (main_part0 (F := F) c >>= fun _ => main_part1 (F := F) c) = seq (ops0 ++ w6)
  rw [main_part0_eq c, main_part1_eq c]
  exact (seq_append ops0 w6).symm

theorem scopedRefs_eq : (Finset.univ.filter fun b : Ref sig .tc => b.isScoped) = ∅ := by decide
theorem scopedSems_eq : (Finset.univ.filter fun sm : SemLoc sig => sm.isScoped .tc) = ∅ := by decide

theorem w0_sub : (w0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩
theorem w1_sub : (w1 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem w2_sub : (w2 : List (HloOp τ sig (Elt F))).Forall fun op => op.bufs ⊆ tcRefs τ sig :=
  ⟨binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w3_sub : (w3 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w4_sub : (w4 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem w5_sub : (w5 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub ..⟩
theorem w6_sub : (w6 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., binary_bufs_sub ..⟩

/-- Every operation touches TensorCore buffers only: stretch by stretch. -/
theorem ops_sub : (ops : List (HloOp τ sig (Elt F))).Forall fun op => op.bufs ⊆ tcRefs τ sig :=
  List.forall_iff_forall_mem.mpr fun op h => by
    rcases List.mem_append.mp h with h | h
    · rcases List.mem_append.mp h with h | h
      · exact List.forall_iff_forall_mem.mp w0_sub op h
      rcases List.mem_append.mp h with h | h
      · exact List.forall_iff_forall_mem.mp w1_sub op h
      rcases List.mem_append.mp h with h | h
      · exact List.forall_iff_forall_mem.mp w2_sub op h
      rcases List.mem_append.mp h with h | h
      · exact List.forall_iff_forall_mem.mp w3_sub op h
      rcases List.mem_append.mp h with h | h
      · exact List.forall_iff_forall_mem.mp w4_sub op h
      · exact List.forall_iff_forall_mem.mp w5_sub op h
    · exact List.forall_iff_forall_mem.mp w6_sub op h

/-- At the compiled mesh, for any float values, from any memory with zero counters: every weakly fair execution
    of @main terminates, and every final state has each buffer at the fold of the 139 operations over the launch
    contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.RefMath.lean ====
/-
  The reference's stages, array by array, on the extended reals.

  Read at the ideal instance, each dense stage of the reference is a named function of whole arrays:
  a product with a weight matrix, a bias laid out as a row and repeated down the rows, the activation
  written with two selections (`x` where `x > 0`, and elsewhere `1 · (exp y − 1)` with `y` the entry
  where it is not positive and `0` where it is). Entry by entry these are the row-wise stages of the
  specification: the product's entry `(p, c)` is `Σ_k x[p, k] · W[k, c]`, the bias contributes `b[c]`,
  and the two selections collapse to `x` above zero and `exp x − 1` elsewhere. The neighbourhood mean is
  kept as one function of its input rows and never opened, so the reference's result is the
  specification's block with that function as its mean.
-/
import proofs.«103860_j12326556140089_1_alg».proof.Proof.Gen.ReferenceIdeal
import proofs.«103860_j12326556140089_1_alg».proof.Proof.Spec
import proofs.«103860_j12326556140089_1_alg».proof.Proof.Agg
import proofs.«103860_j12326556140089_1_alg».proof.Proof.LibPlainDot
import proofs.«103860_j12326556140089_1_alg».proof.Proof.LibBroadcast

noncomputable section

open scoped BigOperators

namespace Cert.ReferenceIdeal.RefValue

open Cert.ReferenceIdeal Cert.ReferenceIdeal.Gen Idealize.ShloMosaic Idealize.ShloMosaic.ValueIdx Cert.Spec

/-! ## Product and bias -/

/-- The program's product record contracts the left operand's columns against the right operand's rows. -/
theorem plainD : Cert.PlainDot.IsPlain dot_S50000x128_S128x128_S50000x128_1_0_0_1_n_n := ⟨rfl, rfl, rfl, rfl, rfl, rfl⟩

/-- Rows times a weight matrix, as the program computes it. -/
def mmR (x : Rows 50000) (W : Mat) : Rows 50000 := Host.dotGeneral dot_S50000x128_S128x128_S50000x128_1_0_0_1_n_n none x W

theorem mmR_apply (x : Rows 50000) (W : Mat) (p : Fin 50000) (c : Fin 128) :
    mmR x W (ix2 p c) = ∑ k : Fin 128, x (ix2 p k) * W (ix2 k c) :=
  Cert.PlainDot.dotGeneral_apply plainD none x W p c

/-- A bias vector as the program lays it out: a single row, repeated down the 50000 rows. -/
def biasR (b : Bias) : Rows 50000 :=
  broadcastInDim S50000x128 ![0, 1] bcast_S1x128_S50000x128_0_1 (broadcastInDim S1x128 ![1] bcast_S128_S1x128_1 b)

theorem biasR_apply (b : Bias) (p : Fin 50000) (c : Fin 128) : biasR b (ix2 p c) = b (ix1 c) :=
  Cert.Bcast.bias_rows_apply (by decide) b _ _ p c

/-- A linear layer of the program: the product plus the repeated bias. -/
def linR (x : Rows 50000) (W : Mat) (b : Bias) : Rows 50000 := addf (mmR x W) (biasR b)

/-- Entry `(p, c)` of the program's linear layer is `Σ_k x[p, k] · W[k, c] + b[c]`: the specification's. -/
theorem linR_eq (x : Rows 50000) (W : Mat) (b : Bias) : linR x W b = lin x W b := by
  funext i
  obtain ⟨p, c, rfl⟩ : ∃ (p : Fin 50000) (c : Fin 128), i = ix2 p c := ⟨i 0, i 1, eq_ix2 i⟩
  exact congrArg₂ (· + ·) (mmR_apply x W p c) (biasR_apply b p c)

/-- A convolution of the program given the aggregated rows `g`: the two products added, then the bias. -/
def convR (h g : Rows 50000) (Ws Wn : Mat) (b : Bias) : Rows 50000 := addf (addf (mmR h Ws) (mmR g Wn)) (biasR b)

theorem convR_eq (h g : Rows 50000) (Ws Wn : Mat) (b : Bias) : convR h g Ws Wn b = conv h g Ws Wn b := by
  funext i
  obtain ⟨p, c, rfl⟩ : ∃ (p : Fin 50000) (c : Fin 128), i = ix2 p c := ⟨i 0, i 1, eq_ix2 i⟩
  exact congrArg₂ (· + ·) (congrArg₂ (· + ·) (mmR_apply h Ws p c) (mmR_apply g Wn p c)) (biasR_apply b p c)

/-! ## The activation -/

/-- The constant zero over all rows. -/
def zeroR : Rows 50000 := broadcastInDim S50000x128 ![] bcast_S_S50000x128 (constant (F := Ideal) S_ .f32 0x00000000#32)

/-- The constant one over all rows (`0x3F800000` is the 32-bit pattern of one). -/
def oneR : Rows 50000 := broadcastInDim S50000x128 ![] bcast_S_S50000x128 (constant (F := Ideal) S_ .f32 0x3F800000#32)

theorem zeroR_apply (i : S50000x128.Idx) : zeroR i = 0 :=
  (Cert.Bcast.scalar_apply _ _ i).trans ((constant_apply _ ix0).trans Ideal.ofBits_zero_f32)

theorem oneR_apply (i : S50000x128.Idx) : oneR i = 1 :=
  (Cert.Bcast.scalar_apply _ _ i).trans ((constant_apply _ ix0).trans (IdealRules.sign_bit.ideal_onePat .f32))

/-- The activation as the program computes it: where `x > 0` the entry itself, elsewhere one times
    `exp y − 1`, `y` being zero where `x > 0` and `x` elsewhere. -/
def eluR (x : Rows 50000) : Rows 50000 :=
  select (cmpf .ogt x zeroR) x (mulf oneR (Host.expm1 (select (cmpf .ogt x zeroR) zeroR x)))

/-- The comparison `x > 0` as a bit. -/
theorem cmp_gt_of_pos {x : EReal} (h : 0 < x) : Ideal.cmp .ogt x 0 = 1#1 := by
  show BitVec.ofBool (decide (0 < x)) = 1#1
  rw [decide_eq_true h]; rfl

theorem cmp_gt_of_not_pos {x : EReal} (h : ¬ 0 < x) : Ideal.cmp .ogt x 0 = 0#1 := by
  show BitVec.ofBool (decide (0 < x)) = 0#1
  rw [decide_eq_false h]; rfl

/-- On one extended real the two selections are the specification's activation: above zero both pick the
    first branch and the result is `x`; elsewhere both pick the second and the result is `1 · (exp x − 1)`. -/
theorem eluE_eq (x : EReal) :
    Scalar.select (Ideal.cmp .ogt x 0) x (1 * (Ideal.exp (Scalar.select (Ideal.cmp .ogt x 0) 0 x) - 1)) = eluE x := by
  unfold eluE
  by_cases h : 0 < x
  · simp only [cmp_gt_of_pos h, select_one, if_pos h]
  · simp only [cmp_gt_of_not_pos h, select_zero, if_neg h, one_mul]

theorem eluR_eq (x : Rows 50000) : eluR x = elu x := funext fun i => by
  show Scalar.select (Ideal.cmp .ogt (x i) (zeroR i)) (x i)
      (oneR i * (Ideal.exp (Scalar.select (Ideal.cmp .ogt (x i) (zeroR i)) (zeroR i) (x i)) - 1)) = eluE (x i)
  rw [zeroR_apply i, oneR_apply i]
  exact eluE_eq (x i)

/-! ## The neighbourhood mean and the whole block -/

/-- The reference's neighbourhood mean of an array of rows, at the launch's edge arrays. -/
def aggR (src dst : IVec S800000 32) (f : Cert.Spec.Rows 50000) : Cert.Spec.Rows 50000 :=
  Cert.Agg.aggOf scatter_S50000_S800000x1_S800000_n_0_0_1 gather_S50000x128_S800000x1_S800000x128_1_0_n_n_0_1_1128 scatter_S50000x128_S800000x1_S800000x128_1_0_0_1
    bcast_S_S800000 bcast_S_S50000 bcast_S_S50000x128 bcast_S800000_S800000x1_0 bcast_S50000_S50000x1_0 bcast_S50000x1_S50000x128_0_1 f src dst

/-- The feature branch as the program computes it: the first convolution, its activation, and the two
    self-interaction layers with their activations. -/
def featR (h : Rows 50000) (src dst : IVec S800000 32) (Ws1 Wn1 : Mat) (bc1 : Bias) (W3 : Mat) (b3 : Bias) (W4 : Mat) (b4 : Bias) :
    Rows 50000 :=
  eluR (linR (eluR (linR (eluR (convR h (aggR src dst h) Ws1 Wn1 bc1)) W3 b3)) W4 b4)

theorem featR_eq (h : Rows 50000) (src dst : IVec S800000 32) (Ws1 Wn1 : Mat) (bc1 : Bias) (W3 : Mat) (b3 : Bias) (W4 : Mat) (b4 : Bias) :
    featR h src dst Ws1 Wn1 bc1 W3 b3 W4 b4 = feat h (aggR src dst h) Ws1 Wn1 bc1 W3 b3 W4 b4 := by
  unfold featR feat
  rw [convR_eq, eluR_eq, linR_eq, eluR_eq, linR_eq, eluR_eq]

/-- The program's result as a function of its seventeen arguments: the skip branch plus the second convolution
    of the features with their neighbourhood mean. -/
def refOut (h : Rows 50000) (src dst : IVec S800000 32) (Wk1 : Mat) (bk1 : Bias) (Wk2 : Mat) (bk2 : Bias)
    (Ws1 Wn1 : Mat) (bc1 : Bias) (W3 : Mat) (b3 : Bias) (W4 : Mat) (b4 : Bias) (Ws2 Wn2 : Mat) (bc2 : Bias) : Rows 50000 :=
  addf (linR (eluR (linR h Wk1 bk1)) Wk2 bk2)
    (convR (featR h src dst Ws1 Wn1 bc1 W3 b3 W4 b4) (aggR src dst (featR h src dst Ws1 Wn1 bc1 W3 b3 W4 b4)) Ws2 Wn2 bc2)

/-- The program's result is the specification's block with the reference's neighbourhood mean. -/
theorem refOut_eq (h : Rows 50000) (src dst : IVec S800000 32) (Wk1 : Mat) (bk1 : Bias) (Wk2 : Mat) (bk2 : Bias)
    (Ws1 Wn1 : Mat) (bc1 : Bias) (W3 : Mat) (b3 : Bias) (W4 : Mat) (b4 : Bias) (Ws2 Wn2 : Mat) (bc2 : Bias) :
    refOut h src dst Wk1 bk1 Wk2 bk2 Ws1 Wn1 bc1 W3 b3 W4 b4 Ws2 Wn2 bc2
      = block (aggR src dst) h Wk1 bk1 Wk2 bk2 Ws1 Wn1 bc1 W3 b3 W4 b4 Ws2 Wn2 bc2 := by
  unfold refOut block out skip
  rw [featR_eq, linR_eq, eluR_eq, linR_eq, convR_eq]
  rfl

end Cert.ReferenceIdeal.RefValue

end
-- ==== Proof.RefRead.lean ====
/-
  The reference's run read stretch by stretch.

  From any contents of the buffers, after one stretch of the operation list the one array a later stretch
  needs is a named stage of the reference — a linear layer, an activation, a convolution, the neighbourhood
  mean as one unopened function — applied to arrays held before the stretch, and the stretch leaves the
  program's seventeen arguments (and, in the middle stretches, the skip branch's result) as they were.
  Each such fact is read off the fold of that stretch alone: every operation's result at its own buffer is
  its function of its operands' contents, and at any other buffer what was there.
-/
import proofs.«103860_j12326556140089_1_alg».proof.Proof.RefRun
import proofs.«103860_j12326556140089_1_alg».proof.Proof.RefMath

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-- The contents after two stretches in a row are the second's after the first's. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- The program's seventeen arguments. -/
abbrev args : List (Ref sig .tc) :=
  [main_arg0, main_arg1, main_arg2, main_arg3, main_arg4, main_arg5, main_arg6, main_arg7, main_arg8, main_arg9, main_arg10, main_arg11, main_arg12, main_arg13, main_arg14, main_arg15, main_arg16]

/-- The arguments and the skip branch's result. -/
abbrev args8 : List (Ref sig .tc) := main_v8 :: args

/-! ## Each stretch by itself, from any contents -/

-- the host primitives are compared by their arguments only, never opened
attribute [local irreducible] Host.gather Host.scatterAdd Host.divf Host.expm1

/-- After the first stretch the skip branch's buffer holds linear, activation, linear of the input rows. -/
theorem w0_v8 (V : Valuation τ sig (Elt Ideal)) :
    after w0 V (main_v8 : DevRef τ sig)
      = linR (eluR (linR (V (main_arg0 : DevRef τ sig)) (V (main_arg3 : DevRef τ sig)) (V (main_arg4 : DevRef τ sig)))) (V (main_arg5 : DevRef τ sig)) (V (main_arg6 : DevRef τ sig)) := by
  after_results_simp <;> rfl

/-- After the second stretch its last buffer holds the neighbourhood mean of the input rows. -/
theorem w1_v27 (V : Valuation τ sig (Elt Ideal)) :
    after w1 V (main_v27 : DevRef τ sig) = aggR (V (main_arg1 : DevRef τ sig)) (V (main_arg2 : DevRef τ sig)) (V (main_arg0 : DevRef τ sig)) := by
  after_results_simp <;> rfl

/-- After the third stretch: the activation of the first convolution of the input rows with the array held as their mean. -/
theorem w2_v34 (V : Valuation τ sig (Elt Ideal)) :
    after w2 V (main_v34 : DevRef τ sig)
      = eluR (convR (V (main_arg0 : DevRef τ sig)) (V (main_v27 : DevRef τ sig)) (V (main_arg7 : DevRef τ sig)) (V (main_arg8 : DevRef τ sig)) (V (main_arg9 : DevRef τ sig))) := by
  after_results_simp <;> rfl

/-- After the fourth stretch: the activation of the first self-interaction layer. -/
theorem w3_v39 (V : Valuation τ sig (Elt Ideal)) :
    after w3 V (main_v39 : DevRef τ sig) = eluR (linR (V (main_v34 : DevRef τ sig)) (V (main_arg10 : DevRef τ sig)) (V (main_arg11 : DevRef τ sig))) := by
  after_results_simp <;> rfl

/-- After the fifth stretch: the activation of the second self-interaction layer. -/
theorem w4_v44 (V : Valuation τ sig (Elt Ideal)) :
    after w4 V (main_v44 : DevRef τ sig) = eluR (linR (V (main_v39 : DevRef τ sig)) (V (main_arg12 : DevRef τ sig)) (V (main_arg13 : DevRef τ sig))) := by
  after_results_simp <;> rfl

/-- After the last two stretches the result buffer holds the skip branch's array plus the second convolution of the
    features with their neighbourhood mean. -/
theorem w56_v70 (V : Valuation τ sig (Elt Ideal)) :
    after w6 (after w5 V) (main_v70 : DevRef τ sig)
      = addf (V (main_v8 : DevRef τ sig)) (convR (V (main_v44 : DevRef τ sig)) (aggR (V (main_arg1 : DevRef τ sig)) (V (main_arg2 : DevRef τ sig)) (V (main_v44 : DevRef τ sig)))
          (V (main_arg14 : DevRef τ sig)) (V (main_arg15 : DevRef τ sig)) (V (main_arg16 : DevRef τ sig))) := by
  after_results_simp <;> rfl

/-- The first stretch writes none of the arguments. -/
theorem w0_keeps (V : Valuation τ sig (Elt Ideal)) : ∀ r ∈ args, after w0 V (r : DevRef τ sig) = V (r : DevRef τ sig) := by
  intro r hr
  simp only [args, List.mem_cons, List.not_mem_nil, or_false] at hr
  rcases hr with rfl | rfl | rfl | rfl | rfl | rfl | rfl | rfl | rfl | rfl | rfl | rfl | rfl | rfl | rfl | rfl | rfl <;> after_results_simp

/-- The second stretch writes none of the arguments nor the skip branch's result. -/
theorem w1_keeps (V : Valuation τ sig (Elt Ideal)) : ∀ r ∈ args8, after w1 V (r : DevRef τ sig) = V (r : DevRef τ sig) := by
  intro r hr
  simp only [args8, args, List.mem_cons, List.not_mem_nil, or_false] at hr
  rcases hr with rfl | rfl | rfl | rfl | rfl | rfl | rfl | rfl | rfl | rfl | rfl | rfl | rfl | rfl | rfl | rfl | rfl | rfl <;> after_results_simp

/-- Nor does the third. -/
theorem w2_keeps (V : Valuation τ sig (Elt Ideal)) : ∀ r ∈ args8, after w2 V (r : DevRef τ sig) = V (r : DevRef τ sig) := by
  intro r hr
  simp only [args8, args, List.mem_cons, List.not_mem_nil, or_false] at hr
  rcases hr with rfl | rfl | rfl | rfl | rfl | rfl | rfl | rfl | rfl | rfl | rfl | rfl | rfl | rfl | rfl | rfl | rfl | rfl <;> after_results_simp

/-- Nor does the fourth. -/
theorem w3_keeps (V : Valuation τ sig (Elt Ideal)) : ∀ r ∈ args8, after w3 V (r : DevRef τ sig) = V (r : DevRef τ sig) := by
  intro r hr
  simp only [args8, args, List.mem_cons, List.not_mem_nil, or_false] at hr
  rcases hr with rfl | rfl | rfl | rfl | rfl | rfl | rfl | rfl | rfl | rfl | rfl | rfl | rfl | rfl | rfl | rfl | rfl | rfl <;> after_results_simp

/-- Nor does the fifth. -/
theorem w4_keeps (V : Valuation τ sig (Elt Ideal)) : ∀ r ∈ args8, after w4 V (r : DevRef τ sig) = V (r : DevRef τ sig) := by
  intro r hr
  simp only [args8, args, List.mem_cons, List.not_mem_nil, or_false] at hr
  rcases hr with rfl | rfl | rfl | rfl | rfl | rfl | rfl | rfl | rfl | rfl | rfl | rfl | rfl | rfl | rfl | rfl | rfl | rfl <;> after_results_simp

/-- The last two stretches write none of the arguments. -/
theorem w56_keeps (V : Valuation τ sig (Elt Ideal)) : ∀ r ∈ args, after w6 (after w5 V) (r : DevRef τ sig) = V (r : DevRef τ sig) := by
  intro r hr
  simp only [args, List.mem_cons, List.not_mem_nil, or_false] at hr
  rcases hr with rfl | rfl | rfl | rfl | rfl | rfl | rfl | rfl | rfl | rfl | rfl | rfl | rfl | rfl | rfl | rfl | rfl <;> after_results_simp

end Cert.ReferenceIdeal.RefValue

end
-- ==== Proof.RefValue.lean ====
/-
  The reference's result, read off its run.

  The run leaves every buffer at the fold of the 139 operations over the launch contents. Stretch by
  stretch, the one array a later stretch needs is a named stage of the reference applied to arrays known
  before it, and the arguments are untouched; chained through the seven stretches, the result buffer holds
  the reference's composed function of the arguments, which is the specification's block with the
  reference's neighbourhood mean — the host chain at the launch's edge arrays, never opened.
-/
import proofs.«103860_j12326556140089_1_alg».proof.Proof.RefRead

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-! ## The stretches chained -/

section Chain

-- the stages are compared by their arguments only while the stretches are chained
attribute [local irreducible] mmR biasR linR convR eluR aggR

/-- What a stretch leaves alone stays what it was before the earlier stretches too. -/
theorem keeps_trans {l : List (HloOp τ sig (Elt Ideal))} {rs rs' : List (Ref sig .tc)}
    (hk : ∀ V : Valuation τ sig (Elt Ideal), ∀ r ∈ rs', after l V (r : DevRef τ sig) = V (r : DevRef τ sig))
    (hs : ∀ r ∈ rs, r ∈ rs') {V V1 : Valuation τ sig (Elt Ideal)}
    (ha : ∀ r ∈ rs, V1 (r : DevRef τ sig) = V (r : DevRef τ sig)) : ∀ r ∈ rs, after l V1 (r : DevRef τ sig) = V (r : DevRef τ sig) :=
  fun r hr => (hk V1 r (hs r hr)).trans (ha r hr)

theorem args_sub_args8 : ∀ r ∈ args, r ∈ args8 := fun _ hr => List.mem_cons_of_mem _ hr

/-- The whole list is the seven stretches one after the other. -/
theorem after_ops (V : Valuation τ sig (Elt Ideal)) :
    after (ops (F := Ideal)) V = after w6 (after w5 (after w4 (after w3 (after w2 (after w1 (after w0 V)))))) := by
  show after ((w0 ++ (w1 ++ (w2 ++ (w3 ++ (w4 ++ w5))))) ++ w6) V = _
  rw [after_app, after_app, after_app, after_app, after_app, after_app]

/-- From any contents `V`, after the 139 operations the result buffer holds the reference's composed function of
    the arguments' contents, and every argument is unchanged. -/
theorem read (V : Valuation τ sig (Elt Ideal)) :
    after ops V (main_v70 : DevRef τ sig)
        = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig))
      ∧ ∀ r ∈ args, after ops V (r : DevRef τ sig) = V (r : DevRef τ sig) := by
  rw [after_ops V]
  have a1 := w0_keeps V
  have s1 := w0_v8 V
  generalize after w0 V = V1 at a1 s1 ⊢
  have a2 := keeps_trans w1_keeps args_sub_args8 a1
  have s2 := (w1_keeps V1 main_v8 List.mem_cons_self).trans s1
  have g2 := w1_v27 V1
  rw [a1 main_arg1 (by decide), a1 main_arg2 (by decide), a1 main_arg0 (by decide)] at g2
  generalize after w1 V1 = V2 at a2 s2 g2 ⊢
  have a3 := keeps_trans w2_keeps args_sub_args8 a2
  have s3 := (w2_keeps V2 main_v8 List.mem_cons_self).trans s2
  have x3 := w2_v34 V2
  rw [g2, a2 main_arg0 (by decide), a2 main_arg7 (by decide), a2 main_arg8 (by decide), a2 main_arg9 (by decide)] at x3
  generalize after w2 V2 = V3 at a3 s3 x3 ⊢
  have a4 := keeps_trans w3_keeps args_sub_args8 a3
  have s4 := (w3_keeps V3 main_v8 List.mem_cons_self).trans s3
  have x4 := w3_v39 V3
  rw [x3, a3 main_arg10 (by decide), a3 main_arg11 (by decide)] at x4
  generalize after w3 V3 = V4 at a4 s4 x4 ⊢
  have a5 := keeps_trans w4_keeps args_sub_args8 a4
  have s5 := (w4_keeps V4 main_v8 List.mem_cons_self).trans s4
  have x5 := w4_v44 V4
  rw [x4, a4 main_arg12 (by decide), a4 main_arg13 (by decide)] at x5
  generalize after w4 V4 = V5 at a5 s5 x5 ⊢
  refine ⟨?_, fun r hr => (w56_keeps V5 r hr).trans (a5 r hr)⟩
  rw [w56_v70 V5, s5, x5, a5 main_arg1 (by decide), a5 main_arg2 (by decide), a5 main_arg14 (by decide),
    a5 main_arg15 (by decide), a5 main_arg16 (by decide)]
  unfold refOut featR
  rfl

end Chain

/-! ## The run -/

/-- At the compiled mesh, from any memory with zero counters: every weakly fair execution of the reference terminates
    with its result buffer at the specification's block of the arguments — the neighbourhood mean being the
    reference's own host chain at the launch's edge arrays — and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v70)
        = Cert.Spec.block (aggR (m ((c.tc : Thread nD τ).loc main_arg1)) (m ((c.tc : Thread nD τ).loc main_arg2)))
            (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run (defs (F := Ideal)) _ _).mono (fun _ h c =>
      have R := read (launchContents m c)
      ⟨(h c main_v70).trans (R.1.trans (refOut_eq ..)),
       (h c main_arg0).trans (R.2 main_arg0 (by decide)),
       (h c main_arg1).trans (R.2 main_arg1 (by decide)),
       (h c main_arg2).trans (R.2 main_arg2 (by decide)),
       (h c main_arg3).trans (R.2 main_arg3 (by decide)),
       (h c main_arg4).trans (R.2 main_arg4 (by decide)),
       (h c main_arg5).trans (R.2 main_arg5 (by decide)),
       (h c main_arg6).trans (R.2 main_arg6 (by decide)),
       (h c main_arg7).trans (R.2 main_arg7 (by decide)),
       (h c main_arg8).trans (R.2 main_arg8 (by decide)),
       (h c main_arg9).trans (R.2 main_arg9 (by decide)),
       (h c main_arg10).trans (R.2 main_arg10 (by decide)),
       (h c main_arg11).trans (R.2 main_arg11 (by decide)),
       (h c main_arg12).trans (R.2 main_arg12 (by decide)),
       (h c main_arg13).trans (R.2 main_arg13 (by decide)),
       (h c main_arg14).trans (R.2 main_arg14 (by decide)),
       (h c main_arg15).trans (R.2 main_arg15 (by decide)),
       (h c main_arg16).trans (R.2 main_arg16 (by decide))⟩)
    (run_main m ρ)

end Cert.ReferenceIdeal.RefValue

end
-- ==== Proof.lean ====
/-
  A residual graph block on a tiled accelerator against its plain array reference: equal on the extended reals.

  Both programs compute, for every node, a skip branch (linear, activation, linear), a feature branch (a
  mean-aggregating graph convolution, activation, a two-layer self-interaction with activations), and the sum of
  the skip branch with a second convolution of the features. The tiled program runs the dense parts in two
  stages over tiles of 5000 rows, rounding matrix operands to a shorter format (the identity on the extended
  reals) and writing the activation as `eˣ − 1` below zero; the reference uses whole-array products and
  `expm1` scaled by one. Every dense stage acts on each row by itself, so a tile of a stage's result is the
  stage applied to the tile, and the tiles cover the array: each program's result is the one row function
  `Cert.Spec.block` of the arguments. The neighbourhood mean is the same chain of host operations in both
  programs, applied to equal arrays, and is never opened. No law used needs the inputs finite.
-/
import proofs.«103860_j12326556140089_1_alg».proof.Defs
import proofs.«103860_j12326556140089_1_alg».proof.Proof.Gen.Kernel
import proofs.«103860_j12326556140089_1_alg».proof.Proof.Gen.Kernel.Skeleton
import proofs.«103860_j12326556140089_1_alg».proof.Proof.Gen.Kernel.Launch
import proofs.«103860_j12326556140089_1_alg».proof.Proof.Gen.Kernel.Points
import proofs.«103860_j12326556140089_1_alg».proof.Proof.Gen.Kernel.Frame
import proofs.«103860_j12326556140089_1_alg».proof.Proof.Gen.KernelIdeal
import proofs.«103860_j12326556140089_1_alg».proof.Proof.Gen.KernelIdeal.Skeleton
import proofs.«103860_j12326556140089_1_alg».proof.Proof.Gen.KernelIdeal.Launch
import proofs.«103860_j12326556140089_1_alg».proof.Proof.Gen.KernelIdeal.Points
import proofs.«103860_j12326556140089_1_alg».proof.Proof.Gen.KernelIdeal.Frame
import proofs.«103860_j12326556140089_1_alg».proof.Proof.Gen.ReferenceIdeal
import proofs.«103860_j12326556140089_1_alg».proof.Proof.Gen.Pre_finite_inputs
import proofs.«103860_j12326556140089_1_alg».proof.Proof.KValue
import proofs.«103860_j12326556140089_1_alg».proof.Proof.RefValue
import Idealize.ShloMosaic.Adequacy
import Idealize.ShloMosaic.Init

noncomputable section

namespace Cert.Proof

open Idealize.ShloMosaic Idealize.SL.Sem

/-- The word-level tiled program runs and leaves its arguments as launched. -/
theorem frame_k : Cert.frame_Kernel := fun m ρ _ => Cert.Kernel.Gen.frame m ρ

/-- So does the tiled program read on the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RefValue.run m ρ)

/-- Reading the tiled program on the extended reals rewrote none of its operations. -/
theorem preserves : Cert.preserves_Kernel_KernelIdeal := trivial

/-- From memories that agree on the arguments both programs end with the block's row function of those
    arguments: the two neighbourhood means are one function, applied to equal arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9, h10, h11, h12, h13, h14, h15, h16⟩ := hagree c
  rw [h0, h1, h2, h3, h4, h5, h6, h7, h8, h9, h10, h11, h12, h13, h14, h15, h16]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
